-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩

abbrev nBuf : Space → Nat
  | .hbm => 44
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S128x128, .f32⟩
  | .hbm, ⟨27, _⟩ => ⟨S100000x128, .bf16⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000x128, .bf16⟩
  | .hbm, ⟨37, _⟩ => ⟨S1700000x128, .f32⟩
  | .hbm, ⟨38, _⟩ => ⟨S_, .f32⟩
  | .hbm, ⟨39, _⟩ => ⟨S100000x128, .f32⟩
  | .hbm, ⟨40, _⟩ => ⟨S1700000x1, .i32⟩
  | .hbm, ⟨41, _⟩ => ⟨S100000x128, .f32⟩
  | .hbm, ⟨42, _⟩ => ⟨S1x128, .f32⟩
  | .hbm, ⟨43, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  bcast_S128_S1x128_1 : S128.BroadcastsInDim S1x128 (![1] : Fin 1 → Fin S1x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S128x128, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  transposes_S128x128_S128x128_1_0 : S128x128.Transposes [1, 0] S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
import proofs.«150544_j4217657884682_2_alg».proof.Proof.Gen.KernelIdeal.Frame

/-!
  The idealized kernel's whole run, with its result array named.

  @main is six segments: three stretches of host operations, the projection kernel, a fourth stretch, the epilogue
  kernel. The buffer contents at each boundary form a fold from the launch memory; at the return every buffer that
  outlives the kernels holds the last boundary's contents. Here that fact is kept for the result buffer as well as
  for the four argument buffers: the result is the epilogue kernel's output array as its write-backs leave it.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents (the epilogue kernel's output array after its write-backs) and the four arguments end as launched. -/
theorem run_named : θ_run defs (onTc (τ := τ) (main (F := F))) ⟨m, fun _ => 0, ρ⟩ (fun r => ∀ c : Dev nD,
      r.2.mem ((c.tc : Thread nD τ).loc main_v30) = W6 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v30 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

/-- The last boundary's contents at the result buffer: the epilogue kernel's output array after all its write-backs. -/
theorem result_is_array (c : Dev nD) :
    W6 m ρ c (Proc.devRef .tc main_v30) = (dat1 (V5 m ρ) c).arrAt 3 cfg1.N := W6_arr m ρ c 3

end Cert.KernelIdeal.Whole

end
-- ==== Proof.LibPlainDot.lean ====
/-
  A plain matrix product's contraction as a sum over one natural coordinate.

  For the dimension numbers of an M×K by K×N product with no batch axis (the left operand contracted on its columns,
  the right on its rows), the contraction index has one axis of extent K, the left operand is read at (row of the
  output, k) and the right at (k, column of the output). So the sum over the contraction index of the products is

      Σ over k < K of  l(r, k) · r(k, c)

  at output index (r, c): the form in which a kernel's block product and a whole-array product are compared.
-/
import Idealize.ShloMosaic.Lib.ValueIdx
import Idealize.ShloMosaic.PureOps.Ideal.Laws

noncomputable section

namespace Cert.LibPlainDot

open Idealize.ShloMosaic Idealize.ShloMosaic.ValueIdx

/-- The contraction of a plain M×K by K×N product at output index j, as a sum over the K positions. -/
theorem plain_contr_sum (M K N : Nat) (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx j ((contrEquiv1 (DotDims.plain M K N) K hr hs).symm k) = ix2 (j 0) k := by
    funext a; apply Fin.ext
    match a with
    | ⟨0, _⟩ => rfl
    | ⟨1, _⟩ => exact ((DotDims.plain M K N).lhsIdx_val_of_single rfl j _).trans hk
  have er : (DotDims.plain M K N).rhsIdx j ((contrEquiv1 (DotDims.plain M K N) K hr hs).symm k) = ix2 k (j 1) := by
    funext a; apply Fin.ext
    match a with
    | ⟨0, _⟩ => exact ((DotDims.plain M K N).rhsIdx_val_of_single rfl j _).trans hk
    | ⟨1, _⟩ => rfl
  exact congrArg₂ (· * ·) (congrArg l el) (congrArg r er)

/-- A tpu.matmul into the zero accumulator with plain dimension numbers, read at an output index. -/
theorem matmul_zero_plain {φ₁ φ₂ : FTy} (M K N : Nat) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply _ prec l r j).trans (plain_contr_sum M K N l r j)

/-- The host's dot_general with plain dimension numbers, read at an output index. -/
theorem dotGeneral_plain {φ₁ φ₂ : FTy} (M K N : Nat) (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j = ∑ k : Fin K, l (ix2 (j 0) k) * r (ix2 k (j 1)) :=
  (Ideal.dotGeneral_apply _ prec sched l r j).trans (plain_contr_sum M K N l r j)

end Cert.LibPlainDot

end
-- ==== Proof.KernelArrays.lean ====
import proofs.«150544_j4217657884682_2_alg».proof.Proof.Gen.KernelIdeal.Frame
import proofs.«150544_j4217657884682_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

/-!
  What the two kernels leave in their output arrays, as whole-array functions of the arrays they find.

  Both kernels walk the 100000 node rows in 20 blocks of 5000 rows, all 128 feature lanes at once.

  • The projection kernel multiplies a block of node rows by the whole 128 × 128 weight matrix and scales row r of the
    product by the r-th entry of a column of per-node factors. So entry (r, j) of its output array is
    (Σ over k of x(r, k) · wt(k, j)) · dcol(r, 0): the narrowing of the operands and of the result to bf16 changes nothing
    at the exact values.
  • The epilogue kernel scales row r of the aggregated table by the same column's entry r, adds the bias row and
    takes the maximum with zero: entry (r, j) is max(agg(r, j) · dcol(r, 0) + brow(0, j), 0).

  Each point writes back one block and the 20 blocks tile the array, so the array after the kernel is that function
  everywhere.
-/

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

theorem origin : (![0, 0] : Fin 2 → Nat) = fun _ => 0 := funext fun a => by fin_cases a <;> rfl

/-! ## The two bodies at an entry -/

/-- The projection kernel's stored block at (p, q): row p of the node block against column q of the weights, times
    the row's factor. -/
theorem projection_payload (v0 : Vec Ideal S5000x128 .f32) (v2 : Vec Ideal S128x128 .f32) (v6 : Vec Ideal S5000x1 .f32)
    (p : Fin 5000) (q : Fin 128) :
    k0_pay1 v0 v2 v6 (ix2 p q) = (∑ k : Fin 128, v0 (ix2 p k) * v2 (ix2 k q)) * v6 (ix2 p (0 : Fin 1)) := by
  unfold k0_pay1
  show FloatOps.matmul (F := Ideal) (DotDims.plain 5000 128 128) none (truncf .bf16 v0 bitsLt_bf16_f32)
        (truncf .bf16 (shapeCast S128x128 v2 shapeCasts_S128x128_S128x128) bitsLt_bf16_f32)
        (constant ⟨2, ![5000, 128]⟩ .f32 0x00000000#32) (ix2 p q)
      * broadcastTo S5000x128 (shapeCast S5000x1 v6 shapeCasts_S5000x1_S5000x1) broadcasts_S5000x1_S5000x128 (ix2 p q) = _
  rw [Cert.LibPlainDot.matmul_zero_plain, shapeCast_self, shapeCast_self]
  refine congrArg₂ (· * ·) rfl ?_
  exact broadcastTo_apply v6 broadcasts_S5000x1_S5000x128 (ix2 p q) (ix2 p (0 : Fin 1)) (fun a => by
    match a with
    | ⟨0, _⟩ => exact (if_neg (show ¬ ((5000 : Nat) = 1) by decide)).symm
    | ⟨1, _⟩ => exact (if_pos rfl).symm)

/-- The epilogue kernel's stored block at (p, q): the aggregated entry times the row's factor, plus the bias of lane q,
    clamped below at zero. -/
theorem epilogue_payload (v0 : Vec Ideal S5000x128 .f32) (v2 : Vec Ideal S5000x1 .f32) (v6 : Vec Ideal S1x128 .f32)
    (p : Fin 5000) (q : Fin 128) :
    k1_pay1 v0 v2 v6 (ix2 p q) = max (v0 (ix2 p q) * v2 (ix2 p (0 : Fin 1)) + v6 (ix2 (0 : Fin 1) q)) 0 := by
  unfold k1_pay1
  show max ((shapeCast S5000x128 v0 shapeCasts_S5000x128_S5000x128) (ix2 p q)
        * (broadcastTo S5000x128 (shapeCast S5000x1 v2 shapeCasts_S5000x1_S5000x1) broadcasts_S5000x1_S5000x128) (ix2 p q)
        + (broadcastTo S5000x128 (shapeCast S1x128 v6 shapeCasts_S1x128_S1x128) broadcasts_S1x128_S5000x128) (ix2 p q))
      (Ideal.ofBits .f32 0x00000000#32) = _
  rw [shapeCast_self, shapeCast_self, shapeCast_self, Ideal.ofBits_zero_f32]
  have hcol : broadcastTo S5000x128 v2 broadcasts_S5000x1_S5000x128 (ix2 p q) = v2 (ix2 p (0 : Fin 1)) :=
    broadcastTo_apply v2 broadcasts_S5000x1_S5000x128 (ix2 p q) (ix2 p (0 : Fin 1)) (fun a => by
      match a with
      | ⟨0, _⟩ => exact (if_neg (show ¬ ((5000 : Nat) = 1) by decide)).symm
      | ⟨1, _⟩ => exact (if_pos rfl).symm)
  have hrow : broadcastTo S5000x128 v6 broadcasts_S1x128_S5000x128 (ix2 p q) = v6 (ix2 (0 : Fin 1) q) :=
    broadcastTo_1b_ab_apply v6 broadcasts_S1x128_S5000x128 p q
  rw [hcol, hrow]

/-! ## The projection kernel's output array -/

/-- The projected table: row r of the node features against the weights, scaled by row r's factor. -/
def projected (x : S100000x128.Idx → EReal) (wt : S128x128.Idx → EReal) (dcol : S100000x1.Idx → EReal) :
    S100000x128.Idx → EReal :=
  fun i => (∑ k : Fin 128, x (ix2 (i 0) k) * wt (ix2 k (i 1))) * dcol (ix2 (i 0) (0 : Fin 1))

/-- A stored entry is the projected table's entry, given where the three loaded blocks sit in their arrays. -/
theorem projection_entry (x : S100000x128.Idx → EReal) (wt : S128x128.Idx → EReal) (dcol : S100000x1.Idx → EReal)
    (v0 : Vec Ideal S5000x128 .f32) (v2 : Vec Ideal S128x128 .f32) (v6 : Vec Ideal S5000x1 .f32)
    (y : S5000x128.Idx) (i : S100000x128.Idx)
    (h0 : ∀ k : Fin 128, v0 (ix2 (y 0) k) = x (ix2 (i 0) k)) (h1 : ∀ k : Fin 128, v2 (ix2 k (y 1)) = wt (ix2 k (i 1)))
    (h2 : v6 (ix2 (y 0) (0 : Fin 1)) = dcol (ix2 (i 0) (0 : Fin 1))) :
    k0_pay1 v0 v2 v6 y = projected x wt dcol i := by
  refine (congrArg (k0_pay1 v0 v2 v6) (eq_ix2 y)).trans ?_
  refine (projection_payload v0 v2 v6 (y 0) (y 1)).trans ?_
  show (∑ k : Fin 128, v0 (ix2 (y 0) k) * v2 (ix2 k (y 1))) * v6 (ix2 (y 0) (0 : Fin 1))
    = (∑ k : Fin 128, x (ix2 (i 0) k) * wt (ix2 k (i 1))) * dcol (ix2 (i 0) (0 : Fin 1))
  rw [h2]
  exact congrArg (· * dcol (ix2 (i 0) (0 : Fin 1))) (Finset.sum_congr rfl fun k _ => by rw [h0 k, h1 k])

/-- The projection kernel's index maps over its 20 points: the row blocks follow the point, the weights stay. -/
theorem projection_points : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) ≤ 19 ∧ win0_3.index t (1 : Fin 2) = 0 :=
  (by decide +kernel : ∀ t : Fin grid0.N, _)

/-- Every one of the 20 row blocks is some point's. -/
theorem projection_onto : ∀ q0 : Fin 20, ∃ t : Fin cfg0.N, win0_3.index t = ![q0.val, 0] :=
  (by decide +kernel : ∀ q0 : Fin 20, ∃ t : Fin grid0.N, win0_3.index t = ![q0.val, 0])

variable (V : (c : Dev nD) → (b : Ref sig .tc) → Buf (Elt Ideal) ((c : Thread nD τ).loc b))

/-- What point t writes back is block t of the projected table. -/
theorem projection_flushed (c : Dev nD) (t : Fin cfg0.N) :
    (dat0 (F := Ideal) V c).flushed 3 t = ((cfg0.win 3).blk t).view.read (Elt Ideal)
      (projected (V c main_arg0) (V c main_v16) (V c main_v15)) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin,
    View.ld_unit_zero (S := S5000x1) origin]
  obtain ⟨e00, e01, e10, e11, e20, e21, e30, e31⟩ := projection_points t
  funext j
  show k0_pay1 (iblk0 V c 0 t) (iblk0 V c 1 t) (iblk0 V c 2 t) j
    = projected (V c main_arg0) (V c main_v16) (V c main_v15) (((cfg0.win 3).blk t).view.emb j)
  refine projection_entry (V c main_arg0) (V c main_v16) (V c main_v15) (iblk0 V c 0 t) (iblk0 V c 1 t) (iblk0 V c 2 t) j
    (((cfg0.win 3).blk t).view.emb j) (fun k => ?_) (fun k => ?_) ?_
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show V c main_v16 (((cfg0.win 1).blk t).view.emb (ix2 k (j 1))) = V c main_v16 (ix2 k ((((cfg0.win 3).blk t).view.emb j) 1))
    refine congrArg (V c main_v16) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  · show V c main_v15 (((cfg0.win 2).blk t).view.emb (ix2 (j 0) (0 : Fin 1))) = V c main_v15 (ix2 ((((cfg0.win 3).blk t).view.emb j) 0) (0 : Fin 1))
    refine congrArg (V c main_v15) (funext fun a => Fin.ext ?_)
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega

/-- An index of the output array is in point t's block iff each coordinate is in the block's range on its axis. -/
theorem mem_projection_block (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v17).slice (win0_3.rect t)).set ↔ _
  rw [View.set_slice_whole, Rect.mem_set_unit]
  exact Iff.rfl

/-- The 20 blocks of 5000 rows cover the 100000 rows: row r is in block r / 5000. -/
theorem projection_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := projection_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_projection_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE PROJECTION KERNEL'S OUTPUT ARRAY after its run: the projected table of the arrays it found. -/
theorem projection_array (c : Dev nD) :
    (dat0 (F := Ideal) V c).arrAt 3 cfg0.N = projected (V c main_arg0) (V c main_v16) (V c main_v15) :=
  (dat0 V c).arrAt_eq_of_cover 3 _ (fun t _ => projection_flushed V c t) projection_cover

/-! ## The epilogue kernel's output array -/

/-- The layer's output from the aggregated table: scale row r by its factor, add the bias row, clamp at zero. -/
def finished (agg : S100000x128.Idx → EReal) (dcol : S100000x1.Idx → EReal) (brow : S1x128.Idx → EReal) :
    S100000x128.Idx → EReal :=
  fun i => max (agg i * dcol (ix2 (i 0) (0 : Fin 1)) + brow (ix2 (0 : Fin 1) (i 1))) 0

theorem epilogue_entry (agg : S100000x128.Idx → EReal) (dcol : S100000x1.Idx → EReal) (brow : S1x128.Idx → EReal)
    (v0 : Vec Ideal S5000x128 .f32) (v2 : Vec Ideal S5000x1 .f32) (v6 : Vec Ideal S1x128 .f32)
    (y : S5000x128.Idx) (i : S100000x128.Idx)
    (h0 : v0 y = agg i) (h1 : v2 (ix2 (y 0) (0 : Fin 1)) = dcol (ix2 (i 0) (0 : Fin 1)))
    (h2 : v6 (ix2 (0 : Fin 1) (y 1)) = brow (ix2 (0 : Fin 1) (i 1))) :
    k1_pay1 v0 v2 v6 y = finished agg dcol brow i := by
  refine (congrArg (k1_pay1 v0 v2 v6) (eq_ix2 y)).trans ?_
  refine (epilogue_payload v0 v2 v6 (y 0) (y 1)).trans ?_
  have e0 : v0 (ix2 (y 0) (y 1)) = agg i := (congrArg v0 (eq_ix2 y).symm).trans h0
  show max (v0 (ix2 (y 0) (y 1)) * v2 (ix2 (y 0) (0 : Fin 1)) + v6 (ix2 (0 : Fin 1) (y 1))) 0
    = max (agg i * dcol (ix2 (i 0) (0 : Fin 1)) + brow (ix2 (0 : Fin 1) (i 1))) 0
  rw [e0, h1, h2]

/-- The epilogue kernel's index maps over its 20 points: the row blocks follow the point, the bias row stays. -/
theorem epilogue_points : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (0 : Fin 2) ≤ 19 ∧ win1_3.index t (1 : Fin 2) = 0 :=
  (by decide +kernel : ∀ t : Fin grid1.N, _)

theorem epilogue_onto : ∀ q0 : Fin 20, ∃ t : Fin cfg1.N, win1_3.index t = ![q0.val, 0] :=
  (by decide +kernel : ∀ q0 : Fin 20, ∃ t : Fin grid1.N, win1_3.index t = ![q0.val, 0])

/-- What point t writes back is block t of the finished table. -/
theorem epilogue_flushed (c : Dev nD) (t : Fin cfg1.N) :
    (dat1 (F := Ideal) V c).flushed 3 t = ((cfg1.win 3).blk t).view.read (Elt Ideal)
      (finished (V c main_v28) (V c main_v15) (V c main_v29)) := by
  show (cfg1.win 3).cut (grid1.coords t) ((dat1 V c).after 3 t) = _
  rw [after1_3]
  unfold out1_3
  rw [View.canon_unit_zero origin]
  simp only [View.ld_unit_zero (S := S5000x128) origin, View.ld_unit_zero (S := S5000x1) origin,
    View.ld_unit_zero (S := S1x128) origin]
  obtain ⟨e00, e01, e10, e11, e20, e21, e30, e31⟩ := epilogue_points t
  funext j
  show k1_pay1 (iblk1 V c 0 t) (iblk1 V c 1 t) (iblk1 V c 2 t) j
    = finished (V c main_v28) (V c main_v15) (V c main_v29) (((cfg1.win 3).blk t).view.emb j)
  refine epilogue_entry (V c main_v28) (V c main_v15) (V c main_v29) (iblk1 V c 0 t) (iblk1 V c 1 t) (iblk1 V c 2 t) j
    (((cfg1.win 3).blk t).view.emb j) ?_ ?_ ?_
  · show V c main_v28 (((cfg1.win 0).blk t).view.emb j) = V c main_v28 (((cfg1.win 3).blk t).view.emb j)
    refine congrArg (V c main_v28) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  · show V c main_v15 (((cfg1.win 1).blk t).view.emb (ix2 (j 0) (0 : Fin 1))) = V c main_v15 (ix2 ((((cfg1.win 3).blk t).view.emb j) 0) (0 : Fin 1))
    refine congrArg (V c main_v15) (funext fun a => Fin.ext ?_)
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  · show V c main_v29 (((cfg1.win 2).blk t).view.emb (ix2 (0 : Fin 1) (j 1))) = V c main_v29 (ix2 (0 : Fin 1) ((((cfg1.win 3).blk t).view.emb j) 1))
    refine congrArg (V c main_v29) (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

theorem mem_epilogue_block (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v30).slice (win1_3.rect t)).set ↔ _
  rw [View.set_slice_whole, Rect.mem_set_unit]
  exact Iff.rfl

theorem epilogue_cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := epilogue_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_epilogue_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE EPILOGUE KERNEL'S OUTPUT ARRAY after its run: the finished table of the arrays it found. -/
theorem epilogue_array (c : Dev nD) :
    (dat1 (F := Ideal) V c).arrAt 3 cfg1.N = finished (V c main_v28) (V c main_v15) (V c main_v29) :=
  (dat1 V c).arrAt_eq_of_cover 3 _ (fun t _ => epilogue_flushed V c t) epilogue_cover

end Cert.KernelIdeal.Blocks

end
-- ==== Proof.LibEdgeRows.lean ====
/-
  A table's rows gathered by an index column, and rows added into a table at an index column, read at an entry — a
  general module: the lemmas are general in the three extents and, for the gather, in the element type.

  The table is N × C, the index column is E × 1 and the rows handed around are E × C.

  • Gather (what `table[idx]` along the first axis lowers to): entry (e, c) of the result is the table's entry
    (row, c), the row being index e read as a signed integer and clamped into [0, N − 1] (`gather_rows_apply`).
  • Scatter-add (what a segment sum lowers to): update row e lands on table row idx e, read as a signed integer and
    NOT clamped; a row whose index is outside [0, N) is dropped. So update entry (e, c') lands on table entry (n, c)
    exactly when idx e = n and c' = c (`rows_land_iff`), and over the extended reals entry (n, c) of the result is the
    table's entry plus the sum, over the rows e whose index is n, of update entry (e, c) (`scatterAdd_rows_apply`).
-/
import Idealize.ShloMosaic.Lib.ValueIdx
import Idealize.ShloMosaic.PureOps.Ideal.Laws

noncomputable section

namespace Cert.LibEdgeRows

open Idealize.ShloMosaic Idealize.ShloMosaic.ValueIdx

/-! ## Rows gathered -/

/-- The dimension numbers of a gather of whole rows: the result's second axis is the row's, the table's first axis is
    collapsed and indexed by the one component of each start index. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row that index e selects: the index read signed and clamped into [0, N − 1]. -/
def rowOf {E w : Nat} (N : Nat) (hN : 0 < N) (idx : IVec ⟨2, ![E, 1]⟩ w) (e : Fin E) : Fin N :=
  ⟨min (idx (ix2 e (0 : Fin 1))).toInt.toNat (N - 1), by omega⟩

/-- THE GATHER READ AT (e, c): the table at (row selected by index e, c). -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (rowOf N hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hst : (rowGatherDims N E C wf).start (ix2 e c) idx 1 = 0 := by
      unfold GatherDims.start
      rw [dif_neg (by show ¬ (1 : Fin 2) ∈ ([0] : List (Fin 2)); decide)]
    rw [hst]
    simp only [Nat.add_zero, Nat.zero_add]
    unfold GatherDims.offCoord
    rw [dif_pos (by show (1 : Fin 2) ∈ (List.finRange 2).filter (fun a => a ∉ (([0] : List (Fin 2)) ++ [])); decide)]
    rfl

/-! ## Rows added in -/

/-- The dimension numbers of a scatter of whole rows: the updates' second axis is the row's, the table's first axis
    is the inserted one, indexed by the one component of each scatter index. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

theorem start_rows_zero : (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c) ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_rows_one : (rowScatterDims N E C wf).start (ix2 e c) idx 1 = 0 := by
  unfold ScatterDims.start
  rw [dif_neg (by show ¬ (1 : Fin 2) ∈ ([0] : List (Fin 2)); decide)]

theorem window_rows_zero : (rowScatterDims N E C wf).window (ix2 e c) 0 = 0 := by
  unfold ScatterDims.window
  rw [dif_neg (by show ¬ (0 : Fin 2) ∈ (List.finRange 2).filter (fun a => a ∉ ([0] : List (Fin 2))); decide)]

theorem window_rows_one : (rowScatterDims N E C wf).window (ix2 e c) 1 = c.val := by
  unfold ScatterDims.window
  rw [dif_pos (by show (1 : Fin 2) ∈ (List.finRange 2).filter (fun a => a ∉ ([0] : List (Fin 2))); decide)]
  rfl

/-- Update entry (e, c) lands on table entry (n, q) exactly when index e, read signed, is n, and c = q. -/
theorem rows_land_iff (n : Fin N) (q : Fin C) :
    (rowScatterDims N E C wf).resultIdx? (ix2 e c) idx = some (ix2 n q)
      ↔ (idx (ix2 e (0 : Fin 1))).toInt = (n.val : Int) ∧ c = q := by
  unfold ScatterDims.resultIdx?
  split
  · rename_i h
    rw [Option.some.injEq]
    constructor
    · intro hf
      have h0 := congrArg (fun f => (f 0).val) hf
      have h1 := congrArg (fun f => (f 1).val) hf
      simp only [start_rows_zero, window_rows_zero, start_rows_one, window_rows_one] at h0 h1
      have g0 := (h 0).1
      rw [start_rows_zero, window_rows_zero] at g0
      refine ⟨?_, Fin.ext ?_⟩
      · have : ((idx (ix2 e (0 : Fin 1))).toInt + ((0 : Nat) : Int)).toNat = n.val := h0
        omega
      · have : ((0 : Int) + (c.val : Int)).toNat = q.val := h1
        omega
    · rintro ⟨hn, rfl⟩
      funext a
      refine Fin.ext ?_
      match a with
      | ⟨0, _⟩ =>
        show ((rowScatterDims N E C wf).start (ix2 e c) idx 0 + ((rowScatterDims N E C wf).window (ix2 e c) 0 : Int)).toNat = n.val
        rw [start_rows_zero, window_rows_zero, hn]; omega
      | ⟨1, _⟩ =>
        show ((rowScatterDims N E C wf).start (ix2 e c) idx 1 + ((rowScatterDims N E C wf).window (ix2 e c) 1 : Int)).toNat = c.val
        rw [start_rows_one, window_rows_one]; omega
  · rename_i h
    constructor
    · intro hf; exact absurd hf (by simp)
    · rintro ⟨hn, rfl⟩
      exfalso
      apply h
      intro a
      match a with
      | ⟨0, _⟩ =>
        show 0 ≤ (rowScatterDims N E C wf).start (ix2 e c) idx 0 + ((rowScatterDims N E C wf).window (ix2 e c) 0 : Int)
          ∧ (rowScatterDims N E C wf).start (ix2 e c) idx 0 + ((rowScatterDims N E C wf).window (ix2 e c) 0 : Int) < (N : Int)
        rw [start_rows_zero, window_rows_zero, hn]
        have := n.isLt
        omega
      | ⟨1, _⟩ =>
        show 0 ≤ (rowScatterDims N E C wf).start (ix2 e c) idx 1 + ((rowScatterDims N E C wf).window (ix2 e c) 1 : Int)
          ∧ (rowScatterDims N E C wf).start (ix2 e c) idx 1 + ((rowScatterDims N E C wf).window (ix2 e c) 1 : Int) < (C : Int)
        rw [start_rows_one, window_rows_one]
        have := c.isLt
        omega

/-- THE SCATTER-ADD READ AT (n, q), over the extended reals: the table's entry plus the sum, over the update rows
    whose index is n, of their entry in column q. -/
theorem scatterAdd_rows_apply (x : (⟨2, ![N, C]⟩ : Shape).Idx → EReal) (upd : (⟨2, ![E, C]⟩ : Shape).Idx → EReal)
    (n : Fin N) (q : Fin C) :
    Ideal.hostScatterAdd (rowScatterDims N E C wf) x idx upd (ix2 n q)
      = x (ix2 n q) + ∑ e : Fin E, if (idx (ix2 e (0 : Fin 1))).toInt = (n.val : Int) then upd (ix2 e q) else 0 := by
  unfold Ideal.hostScatterAdd
  congr 1
  rw [Finset.sum_filter, sum_idx2]
  refine Finset.sum_congr rfl fun e _ => ?_
  simp only [rows_land_iff]
  by_cases hn : (idx (ix2 e (0 : Fin 1))).toInt = (n.val : Int)
  · simp only [hn, true_and, if_true]
    rw [Finset.sum_ite_eq' Finset.univ q (fun c => upd (ix2 e c))]
    simp
  · simp only [hn, false_and, if_false, Finset.sum_const_zero]

end Scatter

end Cert.LibEdgeRows

end
-- ==== Proof.LibEdgeVec.lean ====
/-
  A vector gathered by an index column, and a vector of updates added into a vector at an index column, read at an
  entry: a general module. The lemmas are general in the two extents and, for the gather, in the element type.

  The vector has length N, the index column is E × 1 and the values handed around form a vector of length E.

  • Gather (what reading a flat array at an array of indices lowers to): entry e of the result is the vector's entry at
    index e, the index read as a signed integer and clamped into [0, N − 1] (`gather_vec_apply`).
  • Scatter-add (what a segment sum of scalars lowers to): update e lands on the entry that index e names, read as a
    signed integer and NOT clamped; an update whose index is outside [0, N) is dropped. So update e lands on entry n
    exactly when idx e = n (`vec_land_iff`), and over the extended reals entry n of the result is the vector's entry
    plus the sum, over the updates e whose index is n, of update e (`scatterAdd_vec_apply`).
  • A sum over a rank-1 index set is the sum over its one coordinate (`sum_idx1`).
-/
import Idealize.ShloMosaic.Lib.ValueIdx
import Idealize.ShloMosaic.PureOps.Ideal.Laws

noncomputable section

namespace Cert.LibEdgeVec

open Idealize.ShloMosaic Idealize.ShloMosaic.ValueIdx
open scoped BigOperators

/-! ## Sums over a rank-1 index set -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Entries gathered -/

/-- The dimension numbers of a gather of single entries: the result has no offset axis, the vector's one axis is
    collapsed and indexed by the one component of each start index. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT e: the vector at index e, read signed and clamped into [0, N − 1]. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Entries added in -/

/-- The dimension numbers of a scatter of single entries: the updates have no window axis, the vector's one axis is
    the inserted one, indexed by the one component of each scatter index. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Scatter
variable {N E w : Nat} (wf : ScatterDims.WF ⟨1, ![N]⟩ ⟨2, ![E, 1]⟩ ⟨1, ![E]⟩ [] [0] [0] 1)
  (idx : IVec ⟨2, ![E, 1]⟩ w) (e : Fin E)

theorem start_vec_zero : (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem window_vec_zero : (vecScatterDims N E wf).window (ix1 e) 0 = 0 := by
  unfold ScatterDims.window
  rw [dif_neg (by show ¬ (0 : Fin 1) ∈ (List.finRange 1).filter (fun a => a ∉ ([0] : List (Fin 1))); decide)]

/-- Update e lands on entry n exactly when index e, read signed, is n. -/
theorem vec_land_iff (n : Fin N) :
    (vecScatterDims N E wf).resultIdx? (ix1 e) idx = some (ix1 n)
      ↔ (idx (ix2 e (0 : Fin 1))).toInt = (n.val : Int) := by
  unfold ScatterDims.resultIdx?
  split
  · rename_i h
    rw [Option.some.injEq]
    constructor
    · intro hf
      have h0 := congrArg (fun f => (f 0).val) hf
      simp only [start_vec_zero, window_vec_zero] at h0
      have g0 := (h 0).1
      rw [start_vec_zero, window_vec_zero] at g0
      have : ((idx (ix2 e (0 : Fin 1))).toInt + ((0 : Nat) : Int)).toNat = n.val := h0
      omega
    · intro hn
      funext a
      obtain rfl : a = 0 := Subsingleton.elim _ _
      refine Fin.ext ?_
      show ((vecScatterDims N E wf).start (ix1 e) idx 0 + ((vecScatterDims N E wf).window (ix1 e) 0 : Int)).toNat = n.val
      rw [start_vec_zero, window_vec_zero, hn]; omega
  · rename_i h
    constructor
    · intro hf; exact absurd hf (by simp)
    · intro hn
      exfalso
      apply h
      intro a
      obtain rfl : a = 0 := Subsingleton.elim _ _
      show 0 ≤ (vecScatterDims N E wf).start (ix1 e) idx 0 + ((vecScatterDims N E wf).window (ix1 e) 0 : Int)
        ∧ (vecScatterDims N E wf).start (ix1 e) idx 0 + ((vecScatterDims N E wf).window (ix1 e) 0 : Int) < (N : Int)
      rw [start_vec_zero, window_vec_zero, hn]
      have := n.isLt
      omega

/-- THE SCATTER-ADD READ AT n, over the extended reals: the vector's entry plus the sum, over the updates whose index
    is n, of those updates. -/
theorem scatterAdd_vec_apply (x : (⟨1, ![N]⟩ : Shape).Idx → EReal) (upd : (⟨1, ![E]⟩ : Shape).Idx → EReal)
    (n : Fin N) :
    Ideal.hostScatterAdd (vecScatterDims N E wf) x idx upd (ix1 n)
      = x (ix1 n) + ∑ e : Fin E, if (idx (ix2 e (0 : Fin 1))).toInt = (n.val : Int) then upd (ix1 e) else 0 := by
  unfold Ideal.hostScatterAdd
  congr 1
  rw [Finset.sum_filter, sum_idx1]
  refine Finset.sum_congr rfl fun e _ => ?_
  simp only [vec_land_iff]

end Scatter

end Cert.LibEdgeVec

end
-- ==== Proof.LibERealScale.lean ====
/-
  A finite nonnegative factor moves across a finite sum of extended reals.

  The extended reals are not a semiring: x * (a + b) = x * a + x * b can fail when a and b are infinities of opposite
  signs. It does hold whenever x is nonnegative and finite, for ALL a and b; so such an x distributes over any finite
  sum, and scaling the left factor of every product in a contraction by x scales the whole contraction by x. This is
  what lets a kernel fold a positive dyadic scale (1/8, 1/16, ...) into one operand of a matrix product while its
  reference scales the product, with no finiteness assumption on the data.
-/
import Idealize.ShloMosaic.PureOps.Ideal

namespace Cert.LibERealScale

/-- The product with a finite nonnegative constant distributes over any finite sum of extended reals. -/
theorem mul_sum_of_nonneg {ι : Type*} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- Scaling the left factor of every product by a finite nonnegative constant scales the contraction by it. -/
theorem sum_scaled_mul {ι : Type*} (s : Finset ι) (a b : ι → EReal) {c : EReal} (h0 : 0 ≤ c) (ht : c ≠ ⊤) :
    ∑ i ∈ s, (a i * c) * b i = (∑ i ∈ s, a i * b i) * c := by
  rw [mul_comm _ c, mul_sum_of_nonneg s _ h0 ht]
  exact Finset.sum_congr rfl fun i _ => by rw [mul_comm (a i) c, mul_assoc]

end Cert.LibERealScale
-- ==== Proof.LibEdgeLinear.lean ====
/-
  Summing selected rows and then multiplying by a column is multiplying each row by the column and then summing the
  selected products — a general module: it depends on Mathlib only (through the ideal float instance's imports).

  For real numbers a(e, k) and w(k), and any selection D of the rows e,

      Σ over e with D e of ( Σ over k of a(e, k) · w(k) )  =  Σ over k of ( Σ over e with D e of a(e, k) ) · w(k),

  by distributing w(k) over the inner sum and exchanging the two sums. Over the extended reals the law is stated for
  entries that are real numbers (it fails at the infinities, where a factor does not distribute over a sum), and it is
  proved by moving both sides into the reals: a finite sum of real numbers read in the extended reals is the real
  sum read there (`coe_sum`).
-/
import Idealize.ShloMosaic.PureOps.Ideal.Laws

namespace Cert.LibEdgeLinear

open scoped BigOperators

/-- A finite sum of real numbers, read in the extended reals, is the sum of the numbers read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A selected real number, read in the extended reals. -/
theorem coe_ite (p : Prop) [Decidable p] (x : ℝ) : ((if p then x else 0 : ℝ) : EReal) = if p then (x : EReal) else 0 := by
  split <;> simp

/-- The law over the reals. -/
theorem select_sum_mul_real {E K : Nat} (D : Fin E → Prop) [DecidablePred D] (a : Fin E → Fin K → ℝ) (w : Fin K → ℝ) :
    (∑ e, if D e then ∑ k, a e k * w k else 0) = ∑ k, (∑ e, if D e then a e k else 0) * w k := by
  simp only [Finset.sum_mul]
  rw [Finset.sum_comm]
  refine Finset.sum_congr rfl fun e _ => ?_
  by_cases h : D e
  · simp only [h, if_true]
  · simp only [h, if_false, zero_mul, Finset.sum_const_zero]

/-- THE LAW over the extended reals, for real entries. -/
theorem select_sum_mul {E K : Nat} (D : Fin E → Prop) [DecidablePred D] (a : Fin E → Fin K → EReal) (w : Fin K → EReal)
    (ha : ∀ e k, ∃ r : ℝ, a e k = (r : EReal)) (hw : ∀ k, ∃ r : ℝ, w k = (r : EReal)) :
    (∑ e, if D e then ∑ k, a e k * w k else 0) = ∑ k, (∑ e, if D e then a e k else 0) * w k := by
  choose a' ha' using ha
  choose w' hw' using hw
  have ea : a = fun e k => ((a' e k : ℝ) : EReal) := funext fun e => funext fun k => ha' e k
  have ew : w = fun k => ((w' k : ℝ) : EReal) := funext fun k => hw' k
  subst ea ew
  have hl : (∑ e, if D e then ∑ k, ((a' e k : ℝ) : EReal) * ((w' k : ℝ) : EReal) else 0)
      = ((∑ e, if D e then ∑ k, a' e k * w' k else 0 : ℝ) : EReal) := by
    rw [coe_sum]
    refine Finset.sum_congr rfl fun e _ => ?_
    rw [coe_ite, coe_sum]
    simp only [EReal.coe_mul]
  have hr : (∑ k, (∑ e, if D e then ((a' e k : ℝ) : EReal) else 0) * ((w' k : ℝ) : EReal))
      = ((∑ k, (∑ e, if D e then a' e k else 0) * w' k : ℝ) : EReal) := by
    rw [coe_sum]
    refine Finset.sum_congr rfl fun k _ => ?_
    rw [EReal.coe_mul, coe_sum]
    simp only [coe_ite]
  rw [hl, hr, select_sum_mul_real]

end Cert.LibEdgeLinear
-- ==== Proof.Algebra.lean ====
import proofs.«150544_j4217657884682_2_alg».proof.Proof.LibERealScale
import proofs.«150544_j4217657884682_2_alg».proof.Proof.LibEdgeLinear
import Idealize.ShloMosaic.PureOps.Ideal.Laws

/-!
  The extended-real algebra of the graph-convolution layer.

  A node's normalisation d = deg^(-1/2) (or 0 for an isolated node) is a finite NONNEGATIVE number, and such a factor
  distributes over every finite sum of extended reals, whatever the summands. Hence the target's factor d(c) can be
  taken out of the sum over the edges that end in c:

      Σ over e with D e of a(e) · (u(e) · v(e))  =  ( Σ over e with D e of a(e) · u(e) ) · d(c)

  whenever v(e) = d(c) on the selected edges. No finiteness of the messages a(e) is used.
-/

namespace Cert.GraphConv

open Idealize.ShloMosaic
open scoped BigOperators

/-- A finite nonnegative factor moves out of a sum over selected positions. -/
theorem selected_sum_mul {E : Nat} (D : Fin E → Prop) [DecidablePred D] (f : Fin E → EReal) {c : EReal}
    (h0 : 0 ≤ c) (ht : c ≠ ⊤) :
    (∑ e, if D e then f e else 0) * c = ∑ e, if D e then f e * c else 0 := by
  rw [mul_comm, Cert.LibERealScale.mul_sum_of_nonneg _ _ h0 ht]
  refine Finset.sum_congr rfl fun e _ => ?_
  by_cases h : D e
  · simp only [h, if_true]; exact mul_comm _ _
  · simp only [h, if_false]; exact mul_zero _

/-- The per-edge product of both endpoints' factors against the target's factor applied once to the sum. -/
theorem edge_norm_factored {E : Nat} (D : Fin E → Prop) [DecidablePred D] (a u v : Fin E → EReal) {c : EReal}
    (h0 : 0 ≤ c) (ht : c ≠ ⊤) (hv : ∀ e, D e → v e = c) :
    (∑ e, if D e then a e * (u e * v e) else 0) = (∑ e, if D e then a e * u e else 0) * c := by
  rw [selected_sum_mul D _ h0 ht]
  refine Finset.sum_congr rfl fun e _ => ?_
  by_cases h : D e
  · simp only [h, if_true]; rw [hv e h, mul_assoc]
  · simp only [h, if_false]

/-- A finite sum of real numbers is a real number. -/
theorem real_sum {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [Cert.LibEdgeLinear.coe_sum]; exact Finset.sum_congr rfl fun i _ => hg i⟩

/-- The f32 word 0x3F800000 is the number one. -/
theorem one_word : Ideal.ofBits .f32 0x3F800000#32 = (1 : EReal) := by
  simp [Ideal.ofBits, Ideal.ieee]
  exact_mod_cast (by norm_num : (8388608 : ℝ) * (2 ^ 23)⁻¹ = 1)

/-- The reciprocal square root kept only where its argument is positive, zero elsewhere, of a real argument: a finite
    nonnegative number. -/
theorem guarded_rsqrt_bounds (x z z' : EReal) (hx : ∃ r : ℝ, x = (r : EReal)) (hz : z = 0) (hz' : z' = 0) :
    0 ≤ Scalar.select (Ideal.cmp .ogt x z) (Ideal.rsqrt x) z'
      ∧ Scalar.select (Ideal.cmp .ogt x z) (Ideal.rsqrt x) z' ≠ ⊤ := by
  obtain ⟨r, rfl⟩ := hx
  subst hz hz'
  have hc : Ideal.cmp .ogt ((r : ℝ) : EReal) 0 = BitVec.ofBool (decide ((0 : EReal) < ((r : ℝ) : EReal))) := rfl
  rw [hc]
  by_cases h : (0 : EReal) < ((r : ℝ) : EReal)
  · have hr : 0 < r := EReal.coe_pos.mp h
    have hs : Scalar.select (BitVec.ofBool (decide ((0 : EReal) < ((r : ℝ) : EReal)))) (Ideal.rsqrt ((r : ℝ) : EReal)) (0 : EReal)
        = Ideal.rsqrt ((r : ℝ) : EReal) := by simp [Scalar.select, h]
    rw [hs, Ideal.rsqrt_coe, if_neg (not_lt.mpr hr.le), if_neg hr.ne']
    exact ⟨EReal.coe_nonneg.mpr (inv_nonneg.mpr (Real.sqrt_nonneg r)), EReal.coe_ne_top _⟩
  · have hs : Scalar.select (BitVec.ofBool (decide ((0 : EReal) < ((r : ℝ) : EReal)))) (Ideal.rsqrt ((r : ℝ) : EReal)) (0 : EReal)
        = 0 := by simp [Scalar.select, h]
    rw [hs]
    exact ⟨le_refl _, EReal.zero_ne_top⟩

end Cert.GraphConv
-- ==== Proof.Stages.lean ====
import proofs.«150544_j4217657884682_2_alg».proof.KernelIdeal
import proofs.«150544_j4217657884682_2_alg».proof.Proof.Gen.KernelIdeal
import proofs.«150544_j4217657884682_2_alg».proof.Proof.LibEdgeRows
import proofs.«150544_j4217657884682_2_alg».proof.Proof.LibEdgeVec
import proofs.«150544_j4217657884682_2_alg».proof.Proof.Algebra
import Idealize.ShloMosaic.Lib.ValueIdx
import Idealize.ShloMosaic.Lib.Pipeline.Value
import Idealize.ShloMosaic.PureOps.Ideal.Laws

/-!
  The host stages that both programs compute alike from the edge list, named once.

  From the 2 × 1600000 edge list: the edge sources and the edge targets, each followed by the 100000 self loops
  (`sources`, `targets`); an index vector as an index column (`column`), and the same after the wrap of negative
  indices that precedes a gather (`wrapped`); each node's in-degree, counted by adding a one per edge into the target's
  entry (`degrees`); and each node's factor deg^(-1/2), zero for a node of degree zero (`norms`).

  Facts: an index column reads the vector (`column_apply`); an edge whose raw target is the node n — which is what the
  scatter that counts and aggregates selects on — also gathers node n after the wrap and the clamp, since n is in range
  (`wrapped_of_target`); a degree is a real number and a factor is finite and nonnegative (`degrees_real`,
  `norms_bounds`).
-/

noncomputable section

namespace Cert.KernelIdeal.Stages

open Cert.KernelIdeal Cert.KernelIdeal.Facts₀ Idealize.ShloMosaic Idealize.ShloMosaic.ValueIdx

/-- An index vector as an index column. -/
def column (v : IVec S1700000 32) : IVec S1700000x1 32 :=
  broadcastInDim S1700000x1 ![0] bcast_S1700000_S1700000x1_0 v

/-- An index column after the wrap of negative indices: a negative index has the number of nodes added. -/
def wrapped (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

variable (ei : IVec S2x1600000 32)

/-- The edge sources: the edge list's first row, then one self loop per node. -/
def sources : IVec S1700000 32 :=
  concatenate S1700000 0 [⟨S1600000, shapeCast _ (extractStridedSlice S1x1600000 ![0, 0] ei slices_S2x1600000_S1x1600000_0_0) shapeCasts_S1x1600000_S1600000⟩, ⟨S100000, iotaInDim S100000 32 0⟩] concatenates_S1600000_S100000_S1700000_d0

/-- The edge targets: the edge list's second row, then one self loop per node. -/
def targets : IVec S1700000 32 :=
  concatenate S1700000 0 [⟨S1600000, shapeCast _ (extractStridedSlice S1x1600000 ![1, 0] ei slices_S2x1600000_S1x1600000_1_0) shapeCasts_S1x1600000_S1600000⟩, ⟨S100000, iotaInDim S100000 32 0⟩] concatenates_S1600000_S100000_S1700000_d0

/-- Each node's in-degree: a one added into the target's entry for every edge. -/
def degrees : FVec Ideal S100000 .f32 :=
  Host.scatterAdd (F := Ideal) scatter_S100000_S1700000x1_S1700000_n_0_0_1
    (broadcastInDim S100000 ![] bcast_S_S100000 (constant (F := Ideal) S_ .f32 0x00000000#32))
    (column (targets ei)) (broadcastInDim S1700000 ![] bcast_S_S1700000 (constant (F := Ideal) S_ .f32 0x3F800000#32))

/-- Each node's factor: the reciprocal square root of its degree where that is positive, zero elsewhere. -/
def norms : FVec Ideal S100000 .f32 :=
  select (cmpf (F := Ideal) .ogt (degrees ei) (broadcastInDim S100000 ![] bcast_S_S100000 (constant (F := Ideal) S_ .f32 0x00000000#32)))
    (Host.rsqrt (F := Ideal) (degrees ei))
    (broadcastInDim S100000 ![] bcast_S_S100000 (id (constant (F := Ideal) S_ .f32 0x00000000#32)))

/-! ## Facts -/

theorem column_apply (v : IVec S1700000 32) (e : Fin 1700000) :
    column v (ix2 e (0 : Fin 1)) = v (ix1 e) := by
  unfold column
  exact broadcastInDim_apply ![0] bcast_S1700000_S1700000x1_0 v (ix2 e (0 : Fin 1)) (ix1 e) (fun a => by
    match a with
    | ⟨0, _⟩ => exact (if_neg (show ¬ ((1700000 : Nat) = 1) by decide)).symm)

/-- An edge whose raw target is the node n gathers node n: n is nonnegative, so the wrap leaves it, and below the
    number of nodes, so the clamp leaves it. -/
theorem wrapped_of_target (v : IVec S1700000 32) (e : Fin 1700000) (n : Fin 100000)
    (h : (column v (ix2 e (0 : Fin 1))).toInt = (n.val : Int)) :
    Cert.LibEdgeRows.rowOf 100000 (by decide) (wrapped v) e = n := by
  rw [column_apply] at h
  have hw : wrapped v (ix2 e (0 : Fin 1)) = v (ix1 e) := by
    have hb := broadcastInDim_apply ![0] bcast_S1700000_S1700000x1_0
      (select (cmpi .slt v (broadcastInDim S1700000 ![] bcast_S_S1700000 (constantI S_ 32 0#32)))
        (addi v (broadcastInDim S1700000 ![] bcast_S_S1700000 (constantI S_ 32 100000#32))) v)
      (ix2 e (0 : Fin 1)) (ix1 e) (fun a => by
        match a with
        | ⟨0, _⟩ => exact (if_neg (show ¬ ((1700000 : Nat) = 1) by decide)).symm)
    unfold wrapped
    refine hb.trans ?_
    show Scalar.select (IntOp.cmpi .slt (v (ix1 e)) (0#32)) (IntOp.addi (v (ix1 e)) (100000#32)) (v (ix1 e)) = v (ix1 e)
    have h0 : (0#32 : BitVec 32).toInt = 0 := by decide
    have hs : IntOp.cmpi .slt (v (ix1 e)) (0#32) = 0#1 := by
      show BitVec.ofBool ((v (ix1 e)).slt 0#32) = 0#1
      have : (v (ix1 e)).slt 0#32 = false := by
        simp only [BitVec.slt, h, h0]
        exact decide_eq_false (by omega)
      rw [this]; rfl
    rw [hs]
    rfl
  apply Fin.ext
  show min (wrapped v (ix2 e (0 : Fin 1))).toInt.toNat (100000 - 1) = n.val
  rw [hw, h]
  have := n.isLt
  omega

end Cert.KernelIdeal.Stages

end
-- ==== Proof.HostSide.lean ====
import proofs.«150544_j4217657884682_2_alg».proof.Proof.Gen.KernelIdeal.Frame
import proofs.«150544_j4217657884682_2_alg».proof.Proof.Stages
import Idealize.ShloMosaic.Lib.StableHlo.Run

/-!
  What the idealized kernel's host operations hand to its two kernels, read back from the launch memory.

  Before the projection kernel the host operations build the index vectors, count the degrees and form the factors;
  the kernel finds the node features as launched, the transposed weights, and the factors as a 100000 × 1 column.
  Between the kernels the projected table is gathered at the wrapped sources and the gathered rows are added into a
  zero table at the targets; the epilogue kernel finds that aggregated table, the same column of factors (no
  operation in between writes it) and the bias as a 1 × 128 row.
-/

set_option maxRecDepth 16384

noncomputable section

namespace Cert.KernelIdeal.HostSide

open Cert.KernelIdeal Cert.KernelIdeal.Gen Cert.KernelIdeal.Stages
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The edge list as launched. -/
abbrev edges (c : Dev nD) : IVec S2x1600000 32 := m ((c : Thread nD τ).loc main_arg1)
/-- The node features as launched. -/
abbrev features (c : Dev nD) : FVec Ideal S100000x128 .f32 := m ((c : Thread nD τ).loc main_arg0)
/-- The weight matrix as launched. -/
abbrev weights (c : Dev nD) : FVec Ideal S128x128 .f32 := m ((c : Thread nD τ).loc main_arg2)
/-- The bias as launched. -/
abbrev bias (c : Dev nD) : FVec Ideal S128 .f32 := m ((c : Thread nD τ).loc main_arg3)

/-! ## At the projection kernel's entry -/

theorem entry_features (c : Dev nD) : V3 m ρ c main_arg0 = features m c := by
  show StableHlo.after hostOps0_2 (StableHlo.after hostOps0_1 (StableHlo.after hostOps0 (W0 m ρ c))) (Proc.devRef .tc main_arg0) = _
  simp only [hostOps0_2, hostOps0_1, hostOps0]
  after_results
  try rfl

theorem entry_weights (c : Dev nD) :
    V3 m ρ c main_v16 = transpose S128x128 [1, 0] (weights m c) transposes_S128x128_S128x128_1_0 := by
  show StableHlo.after hostOps0_2 (StableHlo.after hostOps0_1 (StableHlo.after hostOps0 (W0 m ρ c))) (Proc.devRef .tc main_v16) = _
  simp only [hostOps0_2, hostOps0_1, hostOps0]
  after_results
  try rfl

/-! ### The factors, one stretch of host operations at a time -/

/-- After the first stretch: the degrees. -/
theorem first_degrees (c : Dev nD) : W1 m ρ c (Proc.devRef .tc main_v10) = degrees (edges m c) := by
  show StableHlo.after hostOps0 (W0 m ρ c) (Proc.devRef .tc main_v10) = _
  simp only [hostOps0]
  after_results
  try rfl

/-- After the first stretch: which degrees are positive. -/
theorem first_positive (c : Dev nD) : W1 m ρ c (Proc.devRef .tc main_v12)
    = cmpf (F := Ideal) .ogt (degrees (edges m c)) (broadcastInDim S100000 ![] bcast_S_S100000 (constant (F := Ideal) S_ .f32 0x00000000#32)) := by
  show StableHlo.after hostOps0 (W0 m ρ c) (Proc.devRef .tc main_v12) = _
  simp only [hostOps0]
  after_results
  try rfl

/-- After the first stretch: the reciprocal square roots of the degrees. -/
theorem first_rsqrt (c : Dev nD) : W1 m ρ c (Proc.devRef .tc main_v13) = Host.rsqrt (F := Ideal) (degrees (edges m c)) := by
  show StableHlo.after hostOps0 (W0 m ρ c) (Proc.devRef .tc main_v13) = _
  simp only [hostOps0]
  after_results
  try rfl

/-- After the first stretch: the zero that replaces the reciprocal square root of a zero degree. -/
theorem first_zero (c : Dev nD) : W1 m ρ c (Proc.devRef .tc main_cst_2) = constant (F := Ideal) S_ .f32 0x00000000#32 := by
  show StableHlo.after hostOps0 (W0 m ρ c) (Proc.devRef .tc main_cst_2) = _
  simp only [hostOps0]
  after_results
  try rfl

/-- The second stretch (the selection), from any contents: it selects between two buffers by a third, against a
    broadcast of a fourth. -/
theorem selection_stretch (V1 : Valuation τ sig (Elt Ideal)) :
    StableHlo.after hostOps0_1 V1 (Proc.devRef .tc main_v14)
      = select (V1 (Proc.devRef .tc main_v12)) (V1 (Proc.devRef .tc main_v13))
          (broadcastInDim S100000 ![] bcast_S_S100000 (id (V1 (Proc.devRef .tc main_cst_2)))) := by
  simp only [hostOps0_1]
  after_results
  try rfl

/-- The third stretch, from any contents: the factors laid as a column. -/
theorem column_stretch (V2 : Valuation τ sig (Elt Ideal)) :
    StableHlo.after hostOps0_2 V2 (Proc.devRef .tc main_v15)
      = broadcastInDim S100000x1 ![0] bcast_S100000_S100000x1_0 (V2 (Proc.devRef .tc main_v14)) := by
  simp only [hostOps0_2]
  after_results
  try rfl

theorem entry_factors (c : Dev nD) :
    V3 m ρ c main_v15 = broadcastInDim S100000x1 ![0] bcast_S100000_S100000x1_0 (norms (edges m c)) := by
  show StableHlo.after hostOps0_2 (W2 m ρ c) (Proc.devRef .tc main_v15) = _
  rw [column_stretch]
  show broadcastInDim S100000x1 ![0] bcast_S100000_S100000x1_0
    (StableHlo.after hostOps0_1 (W1 m ρ c) (Proc.devRef .tc main_v14)) = _
  rw [selection_stretch, first_positive m ρ c, first_rsqrt m ρ c, first_zero m ρ c]
  rfl

/-! ## Between the kernels -/

theorem mid_sources (c : Dev nD) : W4 m ρ c (Proc.devRef .tc main_v3) = sources (edges m c) := by
  rw [W4_of_ne m ρ c main_v3 (by decide)]
  show StableHlo.after hostOps0_2 (StableHlo.after hostOps0_1 (StableHlo.after hostOps0 (W0 m ρ c))) (Proc.devRef .tc main_v3) = _
  simp only [hostOps0_2, hostOps0_1, hostOps0]
  after_results
  try rfl

theorem mid_targets (c : Dev nD) : W4 m ρ c (Proc.devRef .tc main_v6) = targets (edges m c) := by
  rw [W4_of_ne m ρ c main_v6 (by decide)]
  show StableHlo.after hostOps0_2 (StableHlo.after hostOps0_1 (StableHlo.after hostOps0 (W0 m ρ c))) (Proc.devRef .tc main_v6) = _
  simp only [hostOps0_2, hostOps0_1, hostOps0]
  after_results
  try rfl

theorem mid_bias (c : Dev nD) : W4 m ρ c (Proc.devRef .tc main_arg3) = bias m c := by
  rw [W4_of_ne m ρ c main_arg3 (by decide)]
  show StableHlo.after hostOps0_2 (StableHlo.after hostOps0_1 (StableHlo.after hostOps0 (W0 m ρ c))) (Proc.devRef .tc main_arg3) = _
  simp only [hostOps0_2, hostOps0_1, hostOps0]
  after_results
  try rfl

/-- The column of factors is an input of the projection kernel: it leaves it as it found it. -/
theorem mid_factors (c : Dev nD) : W4 m ρ c (Proc.devRef .tc main_v15) = V3 m ρ c main_v15 :=
  (W4_arr m ρ c 2).trans (((dat0 (V3 m ρ) c).arrAt_in 2 rfl _).trans (A_eq0 (V3 m ρ) c 2))

/-- The projected table is the projection kernel's output array after its write-backs. -/
theorem mid_table (c : Dev nD) : W4 m ρ c (Proc.devRef .tc main_v17) = (dat0 (V3 m ρ) c).arrAt 3 cfg0.N :=
  W4_arr m ρ c 3

/-! ## At the epilogue kernel's entry -/

theorem entry_aggregated (c : Dev nD) :
    V5 m ρ c main_v28
      = Host.scatterAdd (F := Ideal) scatter_S100000x128_S1700000x1_S1700000x128_1_0_0_1
          (broadcastInDim S100000x128 ![] bcast_S_S100000x128 (constant (F := Ideal) S_ .f32 0x00000000#32))
          (column (W4 m ρ c (Proc.devRef .tc main_v6)))
          (extf .f32 (Host.gather gather_S100000x128_S1700000x1_S1700000x128_1_0_n_n_0_1_1128
            (W4 m ρ c (Proc.devRef .tc main_v17)) (wrapped (W4 m ρ c (Proc.devRef .tc main_v3)))) bitsLt_bf16_f32) := by
  show StableHlo.after hostOps1 (W4 m ρ c) (Proc.devRef .tc main_v28) = _
  simp only [hostOps1]
  after_results
  try rfl

theorem entry_factors_again (c : Dev nD) : V5 m ρ c main_v15 = W4 m ρ c (Proc.devRef .tc main_v15) := by
  show StableHlo.after hostOps1 (W4 m ρ c) (Proc.devRef .tc main_v15) = _
  simp only [hostOps1]
  after_results

theorem entry_bias (c : Dev nD) :
    V5 m ρ c main_v29 = broadcastInDim S1x128 ![1] bcast_S128_S1x128_1 (W4 m ρ c (Proc.devRef .tc main_arg3)) := by
  show StableHlo.after hostOps1 (W4 m ρ c) (Proc.devRef .tc main_v29) = _
  simp only [hostOps1]
  after_results

end Cert.KernelIdeal.HostSide

end
-- ==== Proof.Layer.lean ====
import proofs.«150544_j4217657884682_2_alg».proof.Proof.LibEdgeRows
import proofs.«150544_j4217657884682_2_alg».proof.Proof.Algebra
import Idealize.ShloMosaic.Lib.ValueIdx
import Idealize.ShloMosaic.PureOps.Ideal.Laws

/-!
  The graph-convolution layer as one function of its data, and the two groupings that compute it.

  Data: node features x (100000 × 128), transposed weights wt (128 × 128), per-node factors d, a bias b, and two index
  columns over the 1700000 edges — src, from which a source's row is gathered (wrapped and clamped), and dst, at which
  an edge's message is added (an edge whose dst is not a node is dropped). With h(r, j) = Σ over k of x(r, k) · wt(k, j),

      layer(n, q) = max( ( Σ over e with dst e = n of h(src e, q) · d(src e) ) · d(n) + b(q), 0 ).

  • One program scales the projected table's rows by d, gathers and adds them, and scales the aggregated row n by d(n)
    at the end: that is the formula as written (`kernel_side`).
  • The other multiplies each gathered row of h by d(src e) · d(dst' e), dst' being dst wrapped and clamped, and adds.
    On the edges with dst e = n also dst' e = n, and d(n), a finite nonnegative number, comes out of the sum
    (`reference_side`, by `edge_norm_factored`).
-/

noncomputable section

namespace Cert.GraphConv

open Idealize.ShloMosaic Idealize.ShloMosaic.ValueIdx Cert.LibEdgeRows
open scoped BigOperators

abbrev NodeTable : Shape := ⟨2, ![100000, 128]⟩
abbrev Weights : Shape := ⟨2, ![128, 128]⟩
abbrev Nodes : Shape := ⟨1, ![100000]⟩
abbrev Lanes : Shape := ⟨1, ![128]⟩
abbrev EdgeColumn : Shape := ⟨2, ![1700000, 1]⟩
abbrev EdgeTable : Shape := ⟨2, ![1700000, 128]⟩

theorem nodes_pos : 0 < 100000 := by decide

/-- The layer's output at node n, lane q. -/
def layerAt (x : NodeTable.Idx → EReal) (wt : Weights.Idx → EReal) (d : Nodes.Idx → EReal) (b : Lanes.Idx → EReal)
    (src dst : IVec EdgeColumn 32) (n : Fin 100000) (q : Fin 128) : EReal :=
  max ((∑ e : Fin 1700000, if (dst (ix2 e (0 : Fin 1))).toInt = (n.val : Int)
        then (∑ k : Fin 128, x (ix2 (rowOf 100000 nodes_pos src e) k) * wt (ix2 k q)) * d (ix1 (rowOf 100000 nodes_pos src e))
        else 0) * d (ix1 n) + b (ix1 q)) 0

/-- The layer's output table. -/
def layer (x : NodeTable.Idx → EReal) (wt : Weights.Idx → EReal) (d : Nodes.Idx → EReal) (b : Lanes.Idx → EReal)
    (src dst : IVec EdgeColumn 32) : NodeTable.Idx → EReal :=
  fun i => layerAt x wt d b src dst (i 0) (i 1)

/-- The layer's table read at (n, q). -/
theorem layer_apply (x : NodeTable.Idx → EReal) (wt : Weights.Idx → EReal) (d : Nodes.Idx → EReal) (b : Lanes.Idx → EReal)
    (src dst : IVec EdgeColumn 32) (n : Fin 100000) (q : Fin 128) :
    layer x wt d b src dst (ix2 n q) = layerAt x wt d b src dst n q := rfl

/-- Scaled rows gathered, added at the targets, and the aggregated row scaled once more: the layer. -/
theorem kernel_side (wg : GatherDims.WF NodeTable EdgeColumn EdgeTable [1] [0] [] [0] [] 1 ![1, 128])
    (ws : ScatterDims.WF NodeTable EdgeColumn EdgeTable [1] [0] [0] 1)
    (x : NodeTable.Idx → EReal) (wt : Weights.Idx → EReal) (d : Nodes.Idx → EReal) (b : Lanes.Idx → EReal)
    (src dst : IVec EdgeColumn 32) (z table : FVec Ideal NodeTable .f32) (dn bq : EReal)
    (hz : ∀ i, z i = 0)
    (htable : ∀ (r : Fin 100000) (j : Fin 128), table (ix2 r j) = (∑ k : Fin 128, x (ix2 r k) * wt (ix2 k j)) * d (ix1 r))
    (n : Fin 100000) (q : Fin 128) (hdn : dn = d (ix1 n)) (hbq : bq = b (ix1 q)) :
    max (Host.scatterAdd (F := Ideal) (rowScatterDims 100000 1700000 128 ws) z dst
          (Host.gather (rowGatherDims 100000 1700000 128 wg) table src) (ix2 n q) * dn + bq) 0
      = layerAt x wt d b src dst n q := by
  unfold Host.scatterAdd
  rw [Ideal.hostScatterAdd_def, scatterAdd_rows_apply, hz, zero_add, hdn, hbq]
  simp only [gather_rows_apply nodes_pos, htable]
  rfl

/-- Rows of h gathered, each times the product of both endpoints' factors, added at the targets: the layer. -/
theorem reference_side (ws : ScatterDims.WF NodeTable EdgeColumn EdgeTable [1] [0] [0] 1)
    (x : NodeTable.Idx → EReal) (wt : Weights.Idx → EReal) (d : Nodes.Idx → EReal) (b : Lanes.Idx → EReal)
    (src dst dst' : IVec EdgeColumn 32) (z : FVec Ideal NodeTable .f32) (upd : FVec Ideal EdgeTable .f32) (bq z0 : EReal)
    (hz : ∀ i, z i = 0) (hz0 : z0 = 0)
    (hupd : ∀ (e : Fin 1700000) (j : Fin 128), upd (ix2 e j)
      = (∑ k : Fin 128, x (ix2 (rowOf 100000 nodes_pos src e) k) * wt (ix2 k j))
        * (d (ix1 (rowOf 100000 nodes_pos src e)) * d (ix1 (rowOf 100000 nodes_pos dst' e))))
    (hd : ∀ n : Fin 100000, 0 ≤ d (ix1 n) ∧ d (ix1 n) ≠ ⊤)
    (hdst : ∀ (e : Fin 1700000) (n : Fin 100000), (dst (ix2 e (0 : Fin 1))).toInt = (n.val : Int)
      → rowOf 100000 nodes_pos dst' e = n)
    (n : Fin 100000) (q : Fin 128) (hbq : bq = b (ix1 q)) :
    max (Host.scatterAdd (F := Ideal) (rowScatterDims 100000 1700000 128 ws) z dst upd (ix2 n q) + bq) z0
      = layerAt x wt d b src dst n q := by
  unfold Host.scatterAdd
  rw [Ideal.hostScatterAdd_def, scatterAdd_rows_apply, hz, zero_add, hbq, hz0]
  simp only [hupd]
  rw [edge_norm_factored (fun e : Fin 1700000 => (dst (ix2 e (0 : Fin 1))).toInt = (n.val : Int))
    (fun e => ∑ k : Fin 128, x (ix2 (rowOf 100000 nodes_pos src e) k) * wt (ix2 k q))
    (fun e => d (ix1 (rowOf 100000 nodes_pos src e))) (fun e => d (ix1 (rowOf 100000 nodes_pos dst' e)))
    (hd n).1 (hd n).2 (fun e he => by rw [hdst e n he])]
  rfl

end Cert.GraphConv

end
-- ==== Proof.KernelValue.lean ====
import proofs.«150544_j4217657884682_2_alg».proof.Proof.KernelRun
import proofs.«150544_j4217657884682_2_alg».proof.Proof.KernelArrays
import proofs.«150544_j4217657884682_2_alg».proof.Proof.HostSide
import proofs.«150544_j4217657884682_2_alg».proof.Proof.Layer

/-!
  The idealized kernel's result buffer holds the layer's output table.

  The result is the epilogue kernel's output array: the aggregated table scaled row by row, plus the bias, clamped at
  zero. The aggregated table is the projected table's rows gathered at the wrapped sources and added at the targets;
  the projected table is the projection kernel's output array, rows of x·wt scaled by the factors. Read at an index
  (n, q) this is the layer's formula in the kernel's own grouping (`Cert.GraphConv.kernel_side`).
-/

set_option maxRecDepth 16384

noncomputable section

namespace Cert.KernelIdeal.Whole

open Cert.KernelIdeal Cert.KernelIdeal.Gen Cert.KernelIdeal.Stages Cert.KernelIdeal.HostSide Cert.KernelIdeal.Blocks
open Idealize.ShloMosaic Idealize.ShloMosaic.TcCoe Idealize.ShloMosaic.ValueIdx Idealize.SL.Sem

/-- The printed dimension numbers of the aggregating scatter are those of a scatter of whole rows. -/
theorem agg_dims : scatter_S100000x128_S1700000x1_S1700000x128_1_0_0_1
    = Cert.LibEdgeRows.rowScatterDims 100000 1700000 128 Facts₀.scatter_S100000x128_S1700000x1_S1700000x128_1_0_0_1_wf := rfl

/-- The printed dimension numbers of the row gather are those of a gather of whole rows. -/
theorem rows_dims : gather_S100000x128_S1700000x1_S1700000x128_1_0_n_n_0_1_1128
    = Cert.LibEdgeRows.rowGatherDims 100000 1700000 128 Facts₀.gather_S100000x128_S1700000x1_S1700000x128_1_0_n_n_0_1_1128_wf := rfl

/-- The column of factors at (r, 0) is the factor of node r. -/
theorem factor_column_apply (d : FVec Ideal S100000 .f32) (r : Fin 100000) :
    (broadcastInDim S100000x1 ![0] Facts₀.bcast_S100000_S100000x1_0 d) (ix2 r (0 : Fin 1)) = d (ix1 r) :=
  broadcastInDim_apply ![0] Facts₀.bcast_S100000_S100000x1_0 d (ix2 r (0 : Fin 1)) (ix1 r) (fun a => by
    match a with
    | ⟨0, _⟩ => exact (if_neg (show ¬ ((100000 : Nat) = 1) by decide)).symm)

/-- The bias row at (0, j) is the bias of lane j. -/
theorem bias_row_apply (b : FVec Ideal S128 .f32) (j : Fin 128) :
    (broadcastInDim S1x128 ![1] Facts₀.bcast_S128_S1x128_1 b) (ix2 (0 : Fin 1) j) = b (ix1 j) :=
  broadcastInDim_apply ![1] Facts₀.bcast_S128_S1x128_1 b (ix2 (0 : Fin 1) j) (ix1 j) (fun a => by
    match a with
    | ⟨0, _⟩ => exact (if_neg (show ¬ ((128 : Nat) = 1) by decide)).symm)

/-- Widening bf16 to f32 is the identity at the exact values. -/
theorem widen_id (g : FVec Ideal S1700000x128 .bf16) : extf .f32 g Facts₀.bitsLt_bf16_f32 = g := rfl

theorem finished_apply (agg : S100000x128.Idx → EReal) (dcol : S100000x1.Idx → EReal) (brow : S1x128.Idx → EReal)
    (n : Fin 100000) (q : Fin 128) :
    finished agg dcol brow (ix2 n q) = max (agg (ix2 n q) * dcol (ix2 n (0 : Fin 1)) + brow (ix2 (0 : Fin 1) q)) 0 := rfl

/-- The projected table of a column of factors, at (r, j): the projection's entry times node r's factor. -/
theorem table_entry (x : S100000x128.Idx → EReal) (wt : S128x128.Idx → EReal) (d : FVec Ideal S100000 .f32)
    (r : Fin 100000) (j : Fin 128) :
    projected x wt (broadcastInDim S100000x1 ![0] Facts₀.bcast_S100000_S100000x1_0 d) (ix2 r j)
      = (∑ k : Fin 128, x (ix2 r k) * wt (ix2 k j)) * d (ix1 r) := by
  show (∑ k : Fin 128, x (ix2 r k) * wt (ix2 k j))
    * (broadcastInDim S100000x1 ![0] Facts₀.bcast_S100000_S100000x1_0 d) (ix2 r (0 : Fin 1)) = _
  rw [factor_column_apply]

/-- Over any arrays: scaled rows gathered and added, then the epilogue, is the layer. -/
theorem finished_is_layer (x : FVec Ideal S100000x128 .f32) (wt : FVec Ideal S128x128 .f32) (d : FVec Ideal S100000 .f32)
    (b : FVec Ideal S128 .f32) (src dst : IVec S1700000x1 32) :
    finished
        (Host.scatterAdd (F := Ideal) scatter_S100000x128_S1700000x1_S1700000x128_1_0_0_1
          (broadcastInDim S100000x128 ![] Facts₀.bcast_S_S100000x128 (constant (F := Ideal) S_ .f32 0x00000000#32)) dst
          (extf .f32 (Host.gather gather_S100000x128_S1700000x1_S1700000x128_1_0_n_n_0_1_1128
            (projected x wt (broadcastInDim S100000x1 ![0] Facts₀.bcast_S100000_S100000x1_0 d)) src) Facts₀.bitsLt_bf16_f32))
        (broadcastInDim S100000x1 ![0] Facts₀.bcast_S100000_S100000x1_0 d)
        (broadcastInDim S1x128 ![1] Facts₀.bcast_S128_S1x128_1 b)
      = Cert.GraphConv.layer x wt d b src dst := by
  funext i
  obtain ⟨n, q, rfl⟩ : ∃ (n : Fin 100000) (q : Fin 128), i = ix2 n q := ⟨i 0, i 1, eq_ix2 i⟩
  rw [finished_apply, widen_id, agg_dims, rows_dims, Cert.GraphConv.layer_apply]
  refine Eq.trans ?_ (Cert.GraphConv.kernel_side
    Facts₀.gather_S100000x128_S1700000x1_S1700000x128_1_0_n_n_0_1_1128_wf
    Facts₀.scatter_S100000x128_S1700000x1_S1700000x128_1_0_0_1_wf
    x wt d b src dst
    (broadcastInDim S100000x128 ![] Facts₀.bcast_S_S100000x128 (constant (F := Ideal) S_ .f32 0x00000000#32))
    (projected x wt (broadcastInDim S100000x1 ![0] Facts₀.bcast_S100000_S100000x1_0 d))
    ((broadcastInDim S100000x1 ![0] Facts₀.bcast_S100000_S100000x1_0 d) (ix2 n (0 : Fin 1)))
    ((broadcastInDim S1x128 ![1] Facts₀.bcast_S128_S1x128_1 b) (ix2 (0 : Fin 1) q))
    (fun _ => Ideal.ofBits_zero_f32)
    (fun r j => table_entry x wt d r j)
    n q (factor_column_apply d n) (bias_row_apply b q))
  congr 2

variable (m : (ℓ : Loc nD τ sig) → Buf (Elt Ideal) ℓ) (ρ : Dev nD → PrngReg)

/-- THE RESULT BUFFER at the return: the layer's output table of the launch memory's arguments. -/
theorem result_value (c : Dev nD) :
    W6 m ρ c (Proc.devRef .tc main_v30)
      = Cert.GraphConv.layer (features m c)
          (transpose S128x128 [1, 0] (weights m c) Facts₀.transposes_S128x128_S128x128_1_0)
          (norms (edges m c)) (bias m c)
          (wrapped (sources (edges m c))) (column (targets (edges m c))) := by
  have hD : V5 m ρ c main_v15 = broadcastInDim S100000x1 ![0] Facts₀.bcast_S100000_S100000x1_0 (norms (edges m c)) :=
    (entry_factors_again m ρ c).trans ((mid_factors m ρ c).trans (entry_factors m ρ c))
  have hB : V5 m ρ c main_v29 = broadcastInDim S1x128 ![1] Facts₀.bcast_S128_S1x128_1 (bias m c) :=
    (entry_bias m ρ c).trans (congrArg _ (mid_bias m ρ c))
  have hT : W4 m ρ c (Proc.devRef .tc main_v17)
      = projected (features m c)
          (transpose S128x128 [1, 0] (weights m c) Facts₀.transposes_S128x128_S128x128_1_0)
          (broadcastInDim S100000x1 ![0] Facts₀.bcast_S100000_S100000x1_0 (norms (edges m c))) := by
    rw [mid_table m ρ c, projection_array (V3 m ρ) c, entry_features m ρ c, entry_weights m ρ c, entry_factors m ρ c]
  have hA : V5 m ρ c main_v28
      = Host.scatterAdd (F := Ideal) scatter_S100000x128_S1700000x1_S1700000x128_1_0_0_1
          (broadcastInDim S100000x128 ![] Facts₀.bcast_S_S100000x128 (constant (F := Ideal) S_ .f32 0x00000000#32))
          (column (targets (edges m c)))
          (extf .f32 (Host.gather gather_S100000x128_S1700000x1_S1700000x128_1_0_n_n_0_1_1128
            (projected (features m c)
              (transpose S128x128 [1, 0] (weights m c) Facts₀.transposes_S128x128_S128x128_1_0)
              (broadcastInDim S100000x1 ![0] Facts₀.bcast_S100000_S100000x1_0 (norms (edges m c))))
            (wrapped (sources (edges m c)))) Facts₀.bitsLt_bf16_f32) := by
    rw [entry_aggregated m ρ c, mid_targets m ρ c, mid_sources m ρ c, hT]
  rw [result_is_array m ρ c, epilogue_array (V5 m ρ) c, hA, hD, hB]
  exact finished_is_layer (features m c)
    (transpose S128x128 [1, 0] (weights m c) Facts₀.transposes_S128x128_S128x128_1_0)
    (norms (edges m c)) (bias m c) (wrapped (sources (edges m c))) (column (targets (edges m c)))

end Cert.KernelIdeal.Whole

end
-- ==== Proof.RefTerm.lean ====
import proofs.«150544_j4217657884682_2_alg».proof.Proof.RefRun
import proofs.«150544_j4217657884682_2_alg».proof.Proof.Stages

/-!
  The reference's result term with its repeated stages named: the sources, the targets, their index columns and the
  factors occur several times in the composed term of the run; here they are folded into the named stages.
-/

set_option maxRecDepth 16384

noncomputable section

namespace Cert.ReferenceIdeal.RefValue

open Cert.ReferenceIdeal
open Cert.KernelIdeal.Stages (column wrapped sources targets norms degrees)
open Idealize.ShloMosaic Idealize.ShloMosaic.TcCoe Idealize.ShloMosaic.ValueIdx Idealize.SL.Sem

variable (m : (ℓ : Loc nD τ sig) → Buf (Elt Ideal) ℓ)

/-- The edge list as launched. -/
abbrev edges (c : Dev nD) : IVec S2x1600000 32 := m ((c.tc : Thread nD τ).loc main_arg1)
/-- The node features as launched. -/
abbrev features (c : Dev nD) : FVec Ideal S100000x128 .f32 := m ((c.tc : Thread nD τ).loc main_arg0)
/-- The weight matrix as launched. -/
abbrev weights (c : Dev nD) : FVec Ideal S128x128 .f32 := m ((c.tc : Thread nD τ).loc main_arg2)
/-- The bias as launched. -/
abbrev bias (c : Dev nD) : FVec Ideal S128 .f32 := m ((c.tc : Thread nD τ).loc main_arg3)

set_option maxRecDepth 65536 in
/-- The reference's result term with its repeated stages named. -/
theorem result_term (c : Dev nD) : ValueP.res_main_v48 (F := Ideal) m c =
    maximumf (addf
      (Host.scatterAdd (F := Ideal) scatter_S100000x128_S1700000x1_S1700000x128_1_0_0_1
        (broadcastInDim S100000x128 ![] Facts₀.bcast_S_S100000x128 (constant (F := Ideal) S_ .f32 0x00000000#32))
        (column (targets (edges m c)))
        (mulf
          (Host.gather gather_S100000x128_S1700000x1_S1700000x128_1_0_n_n_0_1_1128
            (Host.dotGeneral (F := Ideal) dot_S100000x128_S128x128_S100000x128_1_0_0_1_n_n none
              (features m c)
              (transpose S128x128 [1, 0] (weights m c) Facts₀.transposes_S128x128_S128x128_1_0))
            (wrapped (sources (edges m c))))
          (broadcastInDim S1700000x128 ![0, 1] Facts₀.bcast_S1700000x1_S1700000x128_0_1
            (broadcastInDim S1700000x1 ![0] Facts₀.bcast_S1700000_S1700000x1_0
              (mulf (Host.gather gather_S100000_S1700000x1_S1700000_n_0_n_n_0_1_1 (norms (edges m c)) (wrapped (sources (edges m c))))
                (Host.gather gather_S100000_S1700000x1_S1700000_n_0_n_n_0_1_1 (norms (edges m c)) (wrapped (targets (edges m c)))))))))
      (broadcastInDim S100000x128 ![0, 1] Facts₀.bcast_S1x128_S100000x128_0_1
        (broadcastInDim S1x128 ![1] Facts₀.bcast_S128_S1x128_1 (bias m c))))
    (broadcastInDim S100000x128 ![] Facts₀.bcast_S_S100000x128 (constant (F := Ideal) S_ .f32 0x00000000#32)) := by
  unfold ValueP.res_main_v48 norms degrees column wrapped targets sources
  rfl

end Cert.ReferenceIdeal.RefValue

end
-- ==== Proof.LibColRow.lean ====
/-
  A vector laid along a column or a row of a matrix, read at an index: the row-major recast [a] → [a, 1] at (i, u) is
  the vector's entry i; a vector broadcast down a column [n] → [n, 1] and then across the lanes [n, 1] → [n, k] reads
  its entry r at (r, q); a vector broadcast along a row [k] → [1, k] and then down the rows [1, k] → [n, k] reads its
  entry q at (r, q). General in the extents and in the element type.
-/
import Idealize.ShloMosaic.Lib.ValueIdx
import Idealize.ShloMosaic.Lib.Pipeline.Value

namespace Cert.LibColRow

open Idealize.ShloMosaic Idealize.ShloMosaic.ValueIdx

variable {α : Type}

/-- A vector recast as a column reads, at (i, u), its entry i, whatever the unit coordinate u. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector laid down a column and then across the lanes reads, at (r, q), its entry r. -/
theorem bcast_col_apply {n k : Nat} (hn : n ≠ 1)
    (h1 : (⟨1, ![n]⟩ : Shape).BroadcastsInDim ⟨2, ![n, 1]⟩ (![0] : Fin 1 → Fin 2))
    (h2 : (⟨2, ![n, 1]⟩ : Shape).BroadcastsInDim ⟨2, ![n, k]⟩ (![0, 1] : Fin 2 → Fin 2))
    (v : (⟨1, ![n]⟩ : Shape).Idx → α) (r : Fin n) (q : Fin k) :
    broadcastInDim ⟨2, ![n, k]⟩ ![0, 1] h2 (broadcastInDim ⟨2, ![n, 1]⟩ ![0] h1 v) (ix2 r q) = v (ix1 r) := by
  rw [broadcastInDim_apply ![0, 1] h2 _ (ix2 r q) (ix2 r 0) (fun a => by
    match a with
    | ⟨0, _⟩ => exact (if_neg hn).symm
    | ⟨1, _⟩ => exact (if_pos rfl).symm)]
  exact broadcastInDim_apply ![0] h1 v (ix2 r 0) (ix1 r) (fun a => by
    match a with
    | ⟨0, _⟩ => exact (if_neg hn).symm)

/-- A vector laid along a row and then down the rows reads, at (r, q), its entry q. -/
theorem bcast_row_apply {n k : Nat} (hk : k ≠ 1)
    (h1 : (⟨1, ![k]⟩ : Shape).BroadcastsInDim ⟨2, ![1, k]⟩ (![1] : Fin 1 → Fin 2))
    (h2 : (⟨2, ![1, k]⟩ : Shape).BroadcastsInDim ⟨2, ![n, k]⟩ (![0, 1] : Fin 2 → Fin 2))
    (v : (⟨1, ![k]⟩ : Shape).Idx → α) (r : Fin n) (q : Fin k) :
    broadcastInDim ⟨2, ![n, k]⟩ ![0, 1] h2 (broadcastInDim ⟨2, ![1, k]⟩ ![1] h1 v) (ix2 r q) = v (ix1 q) := by
  rw [broadcastInDim_apply ![0, 1] h2 _ (ix2 r q) (ix2 0 q) (fun a => by
    match a with
    | ⟨0, _⟩ => exact (if_pos rfl).symm
    | ⟨1, _⟩ => exact (if_neg hk).symm)]
  exact broadcastInDim_apply ![1] h1 v (ix2 0 q) (ix1 q) (fun a => by
    match a with
    | ⟨0, _⟩ => exact (if_neg hk).symm)

end Cert.LibColRow
-- ==== Proof.RefUpdate.lean ====
import proofs.«150544_j4217657884682_2_alg».proof.ReferenceIdeal
import proofs.«150544_j4217657884682_2_alg».proof.Proof.Gen.ReferenceIdeal
import proofs.«150544_j4217657884682_2_alg».proof.Proof.Layer
import proofs.«150544_j4217657884682_2_alg».proof.Proof.LibEdgeVec
import proofs.«150544_j4217657884682_2_alg».proof.Proof.LibPlainDot
import proofs.«150544_j4217657884682_2_alg».proof.Proof.LibColRow
import proofs.«150544_j4217657884682_2_alg».proof.Proof.Stages

/-!
  One entry of the rows the reference adds into its table.

  Row e is row src e of the plain projection h = x·wt, times the product of the factors gathered at src e and at the
  wrapped target dst' e, that product laid along the row. The printed dimension numbers are those of the general
  gather and scatter lemmas and of a plain matrix product.
-/

set_option maxRecDepth 16384

noncomputable section

namespace Cert.ReferenceIdeal.RefValue

open Cert.ReferenceIdeal
open Cert.KernelIdeal.Stages (column wrapped sources targets norms degrees)
open Idealize.ShloMosaic Idealize.ShloMosaic.TcCoe Idealize.ShloMosaic.ValueIdx Idealize.SL.Sem

theorem agg_dims : scatter_S100000x128_S1700000x1_S1700000x128_1_0_0_1
    = Cert.LibEdgeRows.rowScatterDims 100000 1700000 128 Facts₀.scatter_S100000x128_S1700000x1_S1700000x128_1_0_0_1_wf := rfl
theorem rows_dims : gather_S100000x128_S1700000x1_S1700000x128_1_0_n_n_0_1_1128
    = Cert.LibEdgeRows.rowGatherDims 100000 1700000 128 Facts₀.gather_S100000x128_S1700000x1_S1700000x128_1_0_n_n_0_1_1128_wf := rfl
theorem entries_dims : gather_S100000_S1700000x1_S1700000_n_0_n_n_0_1_1
    = Cert.LibEdgeVec.vecGatherDims 100000 1700000 Facts₀.gather_S100000_S1700000x1_S1700000_n_0_n_n_0_1_1_wf := rfl
theorem dot_dims : dot_S100000x128_S128x128_S100000x128_1_0_0_1_n_n = DotDims.plain 100000 128 128 := rfl

/-- One entry of the rows the reference adds in: row src e of the projection at lane j, times the product of the
    factors gathered at src e and at dst' e. -/
theorem update_entry (x : FVec Ideal S100000x128 .f32) (wt : FVec Ideal S128x128 .f32) (d : FVec Ideal S100000 .f32)
    (src dst' : IVec S1700000x1 32) (e : Fin 1700000) (j : Fin 128) :
    (mulf
      (Host.gather gather_S100000x128_S1700000x1_S1700000x128_1_0_n_n_0_1_1128
        (Host.dotGeneral (F := Ideal) dot_S100000x128_S128x128_S100000x128_1_0_0_1_n_n none x wt) src)
      (broadcastInDim S1700000x128 ![0, 1] Facts₀.bcast_S1700000x1_S1700000x128_0_1
        (broadcastInDim S1700000x1 ![0] Facts₀.bcast_S1700000_S1700000x1_0
          (mulf (Host.gather gather_S100000_S1700000x1_S1700000_n_0_n_n_0_1_1 d src)
            (Host.gather gather_S100000_S1700000x1_S1700000_n_0_n_n_0_1_1 d dst'))))) (ix2 e j)
      = (∑ k : Fin 128, x (ix2 (Cert.LibEdgeRows.rowOf 100000 Cert.GraphConv.nodes_pos src e) k) * wt (ix2 k j))
        * (d (ix1 (Cert.LibEdgeRows.rowOf 100000 Cert.GraphConv.nodes_pos src e))
          * d (ix1 (Cert.LibEdgeRows.rowOf 100000 Cert.GraphConv.nodes_pos dst' e))) := by
  rw [mulf_apply, rows_dims, Cert.LibEdgeRows.gather_rows_apply Cert.GraphConv.nodes_pos,
    Cert.LibColRow.bcast_col_apply (show (1700000 : Nat) ≠ 1 by decide), mulf_apply, entries_dims,
    Cert.LibEdgeVec.gather_vec_apply Cert.GraphConv.nodes_pos, Cert.LibEdgeVec.gather_vec_apply Cert.GraphConv.nodes_pos,
    dot_dims]
  exact congrArg
    (· * (d (ix1 (Cert.LibEdgeRows.rowOf 100000 Cert.GraphConv.nodes_pos src e))
      * d (ix1 (Cert.LibEdgeRows.rowOf 100000 Cert.GraphConv.nodes_pos dst' e))))
    (Cert.LibPlainDot.dotGeneral_plain 100000 128 128 none .single x wt
      (ix2 (Cert.LibEdgeRows.rowOf 100000 Cert.GraphConv.nodes_pos src e) j))

end Cert.ReferenceIdeal.RefValue

end
-- ==== Proof.StagesBounds.lean ====
import proofs.«150544_j4217657884682_2_alg».proof.Proof.Stages

/-!
  A degree is a real number and a node's factor is finite and nonnegative.

  The degree of node n is the zero it starts from plus a one for every edge whose target is n: a finite sum of real
  numbers. The factor keeps the reciprocal square root of the degree where the degree is positive — a positive real —
  and is zero elsewhere. Both facts are first proved for arbitrary operands of the right kinds and then read at the
  stages.
-/

noncomputable section

namespace Cert.KernelIdeal.Stages

open Cert.KernelIdeal Cert.KernelIdeal.Facts₀ Idealize.ShloMosaic Idealize.ShloMosaic.ValueIdx

/-- The printed dimension numbers of the counting scatter are those of a scatter of single entries. -/
theorem count_dims : scatter_S100000_S1700000x1_S1700000_n_0_0_1
    = Cert.LibEdgeVec.vecScatterDims 100000 1700000 scatter_S100000_S1700000x1_S1700000_n_0_0_1_wf := rfl

/-- Real updates added into a real vector at an index column give real entries. -/
theorem scattered_real (idx : IVec S1700000x1 32) (z : FVec Ideal S100000 .f32) (u : FVec Ideal S1700000 .f32)
    (hz : ∀ i, ∃ r : ℝ, z i = (r : EReal)) (hu : ∀ i, ∃ r : ℝ, u i = (r : EReal)) (n : Fin 100000) :
    ∃ r : ℝ, Host.scatterAdd (F := Ideal) scatter_S100000_S1700000x1_S1700000_n_0_0_1 z idx u (ix1 n) = (r : EReal) := by
  rw [count_dims]
  unfold Host.scatterAdd
  rw [Ideal.hostScatterAdd_def, Cert.LibEdgeVec.scatterAdd_vec_apply]
  obtain ⟨rz, hrz⟩ := hz (ix1 n)
  obtain ⟨rs, hrs⟩ := Cert.GraphConv.real_sum Finset.univ
    (fun e : Fin 1700000 => if (idx (ix2 e (0 : Fin 1))).toInt = (n.val : Int) then u (ix1 e) else 0) (fun e => by
      by_cases hc : (idx (ix2 e (0 : Fin 1))).toInt = (n.val : Int)
      · obtain ⟨r, hr⟩ := hu (ix1 e)
        exact ⟨r, by rw [if_pos hc, hr]⟩
      · exact ⟨0, by rw [if_neg hc]; exact EReal.coe_zero.symm⟩)
  exact ⟨rz + rs, by rw [hrz, hrs]; exact (EReal.coe_add rz rs).symm⟩

variable (ei : IVec S2x1600000 32)

/-- A degree is a real number. -/
theorem degrees_real (n : Fin 100000) : ∃ r : ℝ, degrees ei (ix1 n) = (r : EReal) :=
  scattered_real (column (targets ei)) _ _
    (fun i => ⟨0, (Ideal.ofBits_zero_f32).trans EReal.coe_zero.symm⟩)
    (fun i => ⟨1, (Cert.GraphConv.one_word).trans EReal.coe_one.symm⟩) n

/-- The guarded reciprocal square root of a vector whose entry n is real has a finite nonnegative entry n. -/
theorem guarded_entry (deg : FVec Ideal S100000 .f32) (n : Fin 100000) (hdeg : ∃ r : ℝ, deg (ix1 n) = (r : EReal)) :
    0 ≤ (select (cmpf (F := Ideal) .ogt deg (broadcastInDim S100000 ![] bcast_S_S100000 (constant (F := Ideal) S_ .f32 0x00000000#32)))
          (Host.rsqrt (F := Ideal) deg)
          (broadcastInDim S100000 ![] bcast_S_S100000 (id (constant (F := Ideal) S_ .f32 0x00000000#32)))) (ix1 n)
    ∧ (select (cmpf (F := Ideal) .ogt deg (broadcastInDim S100000 ![] bcast_S_S100000 (constant (F := Ideal) S_ .f32 0x00000000#32)))
          (Host.rsqrt (F := Ideal) deg)
          (broadcastInDim S100000 ![] bcast_S_S100000 (id (constant (F := Ideal) S_ .f32 0x00000000#32)))) (ix1 n) ≠ ⊤ :=
  Cert.GraphConv.guarded_rsqrt_bounds (deg (ix1 n))
    ((broadcastInDim S100000 ![] bcast_S_S100000 (constant (F := Ideal) S_ .f32 0x00000000#32)) (ix1 n))
    ((broadcastInDim S100000 ![] bcast_S_S100000 (id (constant (F := Ideal) S_ .f32 0x00000000#32))) (ix1 n))
    hdeg Ideal.ofBits_zero_f32 Ideal.ofBits_zero_f32

/-- A node's factor is finite and nonnegative. -/
theorem norms_bounds (n : Fin 100000) : 0 ≤ norms ei (ix1 n) ∧ norms ei (ix1 n) ≠ ⊤ :=
  guarded_entry (degrees ei) n (degrees_real ei n)

end Cert.KernelIdeal.Stages

end
-- ==== Proof.RefValue.lean ====
import proofs.«150544_j4217657884682_2_alg».proof.Proof.RefTerm
import proofs.«150544_j4217657884682_2_alg».proof.Proof.RefUpdate
import proofs.«150544_j4217657884682_2_alg».proof.Proof.StagesBounds

/-!
  The reference's result is the layer's output table.

  The reference gathers rows of the plain projection h = x·wt at the wrapped sources, multiplies row e by the product of
  the two endpoint factors d(src e) · d(dst' e), adds the rows at the targets, adds the bias and clamps at zero. Read at
  an index this is the layer's formula in the reference's grouping (`Cert.GraphConv.reference_side`): a factor is
  finite and nonnegative, and an edge whose raw target is node n also gathers node n.
-/

set_option maxRecDepth 16384

noncomputable section

namespace Cert.ReferenceIdeal.RefValue

open Cert.ReferenceIdeal
open Cert.KernelIdeal.Stages (column wrapped sources targets norms degrees)
open Idealize.ShloMosaic Idealize.ShloMosaic.TcCoe Idealize.ShloMosaic.ValueIdx Idealize.SL.Sem

/-- Over any arrays with finite nonnegative factors: the reference's grouping is the layer. -/
theorem reference_is_layer (x : FVec Ideal S100000x128 .f32) (wt : FVec Ideal S128x128 .f32) (d : FVec Ideal S100000 .f32)
    (b : FVec Ideal S128 .f32) (sr tg : IVec S1700000 32) (hd : ∀ n : Fin 100000, 0 ≤ d (ix1 n) ∧ d (ix1 n) ≠ ⊤) :
    maximumf (addf
      (Host.scatterAdd (F := Ideal) scatter_S100000x128_S1700000x1_S1700000x128_1_0_0_1
        (broadcastInDim S100000x128 ![] Facts₀.bcast_S_S100000x128 (constant (F := Ideal) S_ .f32 0x00000000#32))
        (column tg)
        (mulf
          (Host.gather gather_S100000x128_S1700000x1_S1700000x128_1_0_n_n_0_1_1128
            (Host.dotGeneral (F := Ideal) dot_S100000x128_S128x128_S100000x128_1_0_0_1_n_n none x wt)
            (wrapped sr))
          (broadcastInDim S1700000x128 ![0, 1] Facts₀.bcast_S1700000x1_S1700000x128_0_1
            (broadcastInDim S1700000x1 ![0] Facts₀.bcast_S1700000_S1700000x1_0
              (mulf (Host.gather gather_S100000_S1700000x1_S1700000_n_0_n_n_0_1_1 d (wrapped sr))
                (Host.gather gather_S100000_S1700000x1_S1700000_n_0_n_n_0_1_1 d (wrapped tg)))))))
      (broadcastInDim S100000x128 ![0, 1] Facts₀.bcast_S1x128_S100000x128_0_1
        (broadcastInDim S1x128 ![1] Facts₀.bcast_S128_S1x128_1 b)))
    (broadcastInDim S100000x128 ![] Facts₀.bcast_S_S100000x128 (constant (F := Ideal) S_ .f32 0x00000000#32))
      = Cert.GraphConv.layer x wt d b (wrapped sr) (column tg) := by
  funext i
  obtain ⟨n, q, rfl⟩ : ∃ (n : Fin 100000) (q : Fin 128), i = ix2 n q := ⟨i 0, i 1, eq_ix2 i⟩
  rw [maximumf_apply, addf_apply, agg_dims, Cert.GraphConv.layer_apply]
  have hupd : ∀ (e : Fin 1700000) (j : Fin 128), (mulf
          (Host.gather gather_S100000x128_S1700000x1_S1700000x128_1_0_n_n_0_1_1128
            (Host.dotGeneral (F := Ideal) dot_S100000x128_S128x128_S100000x128_1_0_0_1_n_n none x wt)
            (wrapped sr))
          (broadcastInDim S1700000x128 ![0, 1] Facts₀.bcast_S1700000x1_S1700000x128_0_1
            (broadcastInDim S1700000x1 ![0] Facts₀.bcast_S1700000_S1700000x1_0
              (mulf (Host.gather gather_S100000_S1700000x1_S1700000_n_0_n_n_0_1_1 d (wrapped sr))
                (Host.gather gather_S100000_S1700000x1_S1700000_n_0_n_n_0_1_1 d (wrapped tg)))))) (ix2 e j)
      = (∑ k : Fin 128, x (ix2 (Cert.LibEdgeRows.rowOf 100000 Cert.GraphConv.nodes_pos (wrapped sr) e) k) * wt (ix2 k j))
        * (d (ix1 (Cert.LibEdgeRows.rowOf 100000 Cert.GraphConv.nodes_pos (wrapped sr) e))
          * d (ix1 (Cert.LibEdgeRows.rowOf 100000 Cert.GraphConv.nodes_pos (wrapped tg) e))) :=
    fun e j => update_entry x wt d (wrapped sr) (wrapped tg) e j
  have hdst : ∀ (e : Fin 1700000) (n : Fin 100000), ((column tg) (ix2 e (0 : Fin 1))).toInt = (n.val : Int)
      → Cert.LibEdgeRows.rowOf 100000 Cert.GraphConv.nodes_pos (wrapped tg) e = n :=
    fun e n h => Cert.KernelIdeal.Stages.wrapped_of_target tg e n h
  have hbq : (broadcastInDim S100000x128 ![0, 1] Facts₀.bcast_S1x128_S100000x128_0_1
      (broadcastInDim S1x128 ![1] Facts₀.bcast_S128_S1x128_1 b)) (ix2 n q) = b (ix1 q) :=
    Cert.LibColRow.bcast_row_apply (show (128 : Nat) ≠ 1 by decide) Facts₀.bcast_S128_S1x128_1
      Facts₀.bcast_S1x128_S100000x128_0_1 b n q
  refine Eq.trans ?_ (Cert.GraphConv.reference_side Facts₀.scatter_S100000x128_S1700000x1_S1700000x128_1_0_0_1_wf
    x wt d b (wrapped sr) (column tg) (wrapped tg)
    (broadcastInDim S100000x128 ![] Facts₀.bcast_S_S100000x128 (constant (F := Ideal) S_ .f32 0x00000000#32))
    (mulf
          (Host.gather gather_S100000x128_S1700000x1_S1700000x128_1_0_n_n_0_1_1128
            (Host.dotGeneral (F := Ideal) dot_S100000x128_S128x128_S100000x128_1_0_0_1_n_n none x wt)
            (wrapped sr))
          (broadcastInDim S1700000x128 ![0, 1] Facts₀.bcast_S1700000x1_S1700000x128_0_1
            (broadcastInDim S1700000x1 ![0] Facts₀.bcast_S1700000_S1700000x1_0
              (mulf (Host.gather gather_S100000_S1700000x1_S1700000_n_0_n_n_0_1_1 d (wrapped sr))
                (Host.gather gather_S100000_S1700000x1_S1700000_n_0_n_n_0_1_1 d (wrapped tg))))))
    ((broadcastInDim S100000x128 ![0, 1] Facts₀.bcast_S1x128_S100000x128_0_1
      (broadcastInDim S1x128 ![1] Facts₀.bcast_S128_S1x128_1 b)) (ix2 n q))
    ((broadcastInDim S100000x128 ![] Facts₀.bcast_S_S100000x128 (constant (F := Ideal) S_ .f32 0x00000000#32)) (ix2 n q))
    ?hz ?hz0 ?hupd ?hd ?hdst n q ?hbq)
  case hz => exact fun _ => Ideal.ofBits_zero_f32
  case hz0 => exact Ideal.ofBits_zero_f32
  case hupd => exact hupd
  case hd => exact hd
  case hdst => exact hdst
  case hbq => exact hbq
  congr 2

variable (m : (ℓ : Loc nD τ sig) → Buf (Elt Ideal) ℓ)

/-- THE REFERENCE'S RESULT: the layer's output table of the launch memory's arguments. -/
theorem result_value (c : Dev nD) :
    ValueP.res_main_v48 (F := Ideal) m c
      = Cert.GraphConv.layer (features m c)
          (transpose S128x128 [1, 0] (weights m c) Facts₀.transposes_S128x128_S128x128_1_0)
          (norms (edges m c)) (bias m c)
          (wrapped (sources (edges m c))) (column (targets (edges m c))) := by
  rw [result_term]
  exact reference_is_layer (features m c)
    (transpose S128x128 [1, 0] (weights m c) Facts₀.transposes_S128x128_S128x128_1_0)
    (norms (edges m c)) (bias m c) (sources (edges m c)) (targets (edges m c))
    (fun n => Cert.KernelIdeal.Stages.norms_bounds (edges m c) n)

end Cert.ReferenceIdeal.RefValue

end
-- ==== Proof.lean ====
/-
  A graph-convolution layer: the Pallas kernels with the host's gather and scatter between them, against the jnp
  reference, at the exact values.

  Both programs add self loops to the edge list, count each node's in-degree and form its factor d = deg^(-1/2) (zero
  for a node without edges). With h = x · Wᵀ, the reference adds into row c, for every edge e that ends in c, the row
  h(src e) times d(src e) · d(dst e), adds the bias and clamps at zero. The kernel scales row r of h by d(r) inside its
  projection kernel, gathers and adds the scaled rows, and multiplies the aggregated row c by d(c) in its epilogue
  kernel, with the bias and the clamp. The two agree because d(c) is a finite nonnegative number, and such a factor
  distributes over every finite sum of extended reals: no finiteness of the features or weights is needed, and the
  precondition is not opened.

  The three frames are the generated ones (the reference's from its run); the idealization rewrote nothing, so
  `preserves` is trivial; `algebraic` states both runs at the one layer function (`Cert.GraphConv.layer`).
-/
import proofs.«150544_j4217657884682_2_alg».proof.Defs
import proofs.«150544_j4217657884682_2_alg».proof.Proof.Gen.Kernel
import proofs.«150544_j4217657884682_2_alg».proof.Proof.Gen.Kernel.Skeleton
import proofs.«150544_j4217657884682_2_alg».proof.Proof.Gen.Kernel.Launch
import proofs.«150544_j4217657884682_2_alg».proof.Proof.Gen.Kernel.Points
import proofs.«150544_j4217657884682_2_alg».proof.Proof.Gen.Kernel.Frame
import proofs.«150544_j4217657884682_2_alg».proof.Proof.Gen.KernelIdeal
import proofs.«150544_j4217657884682_2_alg».proof.Proof.Gen.KernelIdeal.Skeleton
import proofs.«150544_j4217657884682_2_alg».proof.Proof.Gen.KernelIdeal.Launch
import proofs.«150544_j4217657884682_2_alg».proof.Proof.Gen.KernelIdeal.Points
import proofs.«150544_j4217657884682_2_alg».proof.Proof.Gen.KernelIdeal.Frame
import proofs.«150544_j4217657884682_2_alg».proof.Proof.Gen.ReferenceIdeal
import proofs.«150544_j4217657884682_2_alg».proof.Proof.Gen.Pre_finite_inputs
import proofs.«150544_j4217657884682_2_alg».proof.Proof.KernelValue
import proofs.«150544_j4217657884682_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the layer's output table of the (agreeing) arguments in their result buffers. -/
theorem algebraic : Cert.algebraic_KernelIdeal_ReferenceIdeal := by
  intro m ρ m' ρ' _ hagree
  refine ⟨fun c => Cert.GraphConv.layer (Cert.KernelIdeal.HostSide.features m c)
      (transpose Cert.KernelIdeal.S128x128 [1, 0] (Cert.KernelIdeal.HostSide.weights m c)
        Cert.KernelIdeal.Facts₀.transposes_S128x128_S128x128_1_0)
      (Cert.KernelIdeal.Stages.norms (Cert.KernelIdeal.HostSide.edges m c))
      (Cert.KernelIdeal.HostSide.bias m c)
      (Cert.KernelIdeal.Stages.wrapped (Cert.KernelIdeal.Stages.sources (Cert.KernelIdeal.HostSide.edges m c)))
      (Cert.KernelIdeal.Stages.column (Cert.KernelIdeal.Stages.targets (Cert.KernelIdeal.HostSide.edges m c))), ?_, ?_⟩
  · exact (θ_run Cert.KernelIdeal.defs _ _).mono
      (fun r h c => ⟨(h c).1.trans (Cert.KernelIdeal.Whole.result_value m ρ c), (h c).2⟩)
      (Cert.KernelIdeal.Whole.run_named m ρ)
  · refine (θ_run Cert.ReferenceIdeal.defs _ _).mono (fun r h c => ⟨(h c).1.trans ?_, (h c).2⟩)
      (Cert.ReferenceIdeal.ValueP.run (F := Ideal) m' ρ')
    have e0 : Cert.ReferenceIdeal.RefValue.features m' c = Cert.KernelIdeal.HostSide.features m c := (hagree c).1
    have e1 : Cert.ReferenceIdeal.RefValue.edges m' c = Cert.KernelIdeal.HostSide.edges m c := (hagree c).2.1
    have e2 : Cert.ReferenceIdeal.RefValue.weights m' c = Cert.KernelIdeal.HostSide.weights m c := (hagree c).2.2.1
    have e3 : Cert.ReferenceIdeal.RefValue.bias m' c = Cert.KernelIdeal.HostSide.bias m c := (hagree c).2.2.2
    rw [Cert.ReferenceIdeal.RefValue.result_value m' c, e1, e0, e2, e3]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
